-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S512x1024 : Shape := ⟨2, ![512, 1024]⟩
abbrev S512x3072 : Shape := ⟨2, ![512, 3072]⟩
abbrev S1x3072 : Shape := ⟨2, ![1, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072x1024, .bf16⟩
  | .hbm, ⟨6, _⟩ => ⟨S1024x1024, .bf16⟩
  | .hbm, ⟨7, _⟩ => ⟨S4x2048x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .bf16⟩
  | .local _ .vmem, ⟨17, _⟩ => ⟨S512x128, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x1024.size a
  hwx1_0 : ∀ i : grid1.Coords, EltTy.bits .bf16 = 32 ∨ (Rect.block (s := S8192x1024) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x1024.size a
  hwx1_1 : ∀ i : grid1.Coords, EltTy.bits .bf16 = 32 ∨ (Rect.block (s := S8192x1024) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x1024.size a
  hwx1_2 : ∀ i : grid1.Coords, EltTy.bits .bf16 = 32 ∨ (Rect.block (s := S8192x1024) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x1024.size a
  hwx1_3 : ∀ i : grid1.Coords, EltTy.bits .bf16 = 32 ∨ (Rect.block (s := S8192x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
/-
  Multi-head self-attention as one function of its five argument arrays, index by index, on the extended reals.

  The arguments: activations x[b, s, d] (4 sequences of 2048 positions, model width 1024), the fused projection
  W[e, d] (3072 = 3 · 1024 output columns: queries, keys, values) with bias bq[e], the output projection Wo[e, c] with
  bias bo[e]. There are 16 heads of width 64: column p·1024 + h·64 + d of the fused projection is lane d of head h of
  part p (0 queries, 1 keys, 2 values).

      qkv(b, s, e)     = Σ_d x(b, s, d) · W(e, d) + bq(e)
      score(b, h, q, k) = ( Σ_d qkv(b, q, [0,h,d]) · qkv(b, k, [1,h,d]) ) / √64
      expo(b, h, q, k)  = exp( score(b, h, q, k) − max_k' score(b, h, q, k') )
      prob(b, h, q, k)  = expo(b, h, q, k) / Σ_k' expo(b, h, q, k')
      ctx(b, h, q, d)   = Σ_k prob(b, h, q, k) · qkv(b, k, [2,h,d])
      out(b, s, e)      = Σ_c ctx(b, c / 64, s, c % 64) · Wo(e, c) + bo(e)

  The maximum is the fold of max from −∞ over the 2048 keys; √64 and −∞ are kept as the operations on the printed
  32-bit words, so that a side which computes them the same way meets these terms without evaluating them.
-/
import Idealize.ShloMosaic.PureOps.Ideal
import Idealize.ShloMosaic.Lib.ValueIdx

noncomputable section

namespace Cert.Mha

open Idealize.ShloMosaic Idealize.ShloMosaic.ValueIdx

abbrev SX : Shape := ⟨3, ![4, 2048, 1024]⟩
abbrev SW : Shape := ⟨2, ![3072, 1024]⟩
abbrev SB : Shape := ⟨1, ![3072]⟩
abbrev SWo : Shape := ⟨2, ![1024, 1024]⟩
abbrev SBo : Shape := ⟨1, ![1024]⟩

/-- Column of the fused projection: part `p` (0 queries, 1 keys, 2 values), head `h`, lane `d`. -/
def col (p : Fin 3) (h : Fin 16) (d : Fin 64) : Fin 3072 :=
  ⟨p.val * 1024 + h.val * 64 + d.val, by have := p.isLt; have := h.isLt; have := d.isLt; omega⟩

/-- The head a column of the model width belongs to, and its lane inside the head. -/
def headOf (c : Fin 1024) : Fin 16 := ⟨c.val / 64, by have := c.isLt; omega⟩
def laneOf (c : Fin 1024) : Fin 64 := ⟨c.val % 64, by omega⟩

/-- The divisor of the scores: the square root of the word 64.0. -/
def sqrtDk : EReal := Ideal.sqrt (Ideal.ofBits .f32 0x42800000#32)

/-- The value a row maximum starts from: the word of −∞. -/
def negInf : EReal := Ideal.ofBits .f32 0xFF800000#32

/-- The maximum of a row of 2048 scores, folded from −∞. -/
def rowMax (f : Fin 2048 → EReal) : EReal := (Finset.univ : Finset (Fin 2048)).fold max negInf f

section
variable (x : SX.Idx → EReal) (W : SW.Idx → EReal) (bq : SB.Idx → EReal) (Wo : SWo.Idx → EReal) (bo : SBo.Idx → EReal)

/-- The fused projection at position (b, s), column e. -/
def qkv (b : Fin 4) (s : Fin 2048) (e : Fin 3072) : EReal :=
  (∑ d : Fin 1024, x (ix3 b s d) * W (ix2 e d)) + bq (ix1 e)

/-- The scaled score of query position q against key position k in head h of sequence b. -/
def score (b : Fin 4) (h : Fin 16) (q k : Fin 2048) : EReal :=
  Ideal.div (∑ d : Fin 64, qkv x W bq b q (col 0 h d) * qkv x W bq b k (col 1 h d)) sqrtDk

/-- The exponential of a score shifted by its row's maximum. -/
def expo (b : Fin 4) (h : Fin 16) (q k : Fin 2048) : EReal :=
  Ideal.exp (score x W bq b h q k - rowMax (score x W bq b h q))

/-- The attention weight: the shifted exponential over its row's sum. -/
def prob (b : Fin 4) (h : Fin 16) (q k : Fin 2048) : EReal :=
  Ideal.div (expo x W bq b h q k) (∑ k' : Fin 2048, expo x W bq b h q k')

/-- The attended values: lane d of head h at query position q. -/
def ctx (b : Fin 4) (h : Fin 16) (q : Fin 2048) (d : Fin 64) : EReal :=
  ∑ k : Fin 2048, prob x W bq b h q k * qkv x W bq b k (col 2 h d)

/-- The output projection of the merged heads. -/
def out (b : Fin 4) (s : Fin 2048) (e : Fin 1024) : EReal :=
  (∑ c : Fin 1024, ctx x W bq b (headOf c) s (laneOf c) * Wo (ix2 e c)) + bo (ix1 e)

/-- The whole result array, [4, 2048, 1024]. -/
def G : SX.Idx → EReal := fun i => out x W bq Wo bo (i 0) (i 1) (i 2)

theorem G_ix3 (b : Fin 4) (s : Fin 2048) (e : Fin 1024) : G x W bq Wo bo (ix3 b s e) = out x W bq Wo bo b s e := rfl

end

end Cert.Mha

end
-- ==== Proof.FlatSpec.lean ====
/-
  The same attention computed on FLATTENED activations: the 4 sequences of 2048 positions laid out as 8192 rows, every
  intermediate a [8192, 1024] array. Row r belongs to sequence r / 2048; its keys and values are the 2048 rows of that
  sequence, rows (r / 2048) · 2048 + k. Column c belongs to head c / 64; the head's lanes are columns (c / 64) · 64 + d.

      projFlat j (r, e)   = Σ_d X(r, d) · W(j·1024 + e, d) + bq(j·1024 + e)              (j = 0 queries, 1 keys, 2 values)
      scoreFlat (r, c, k) = Σ_d ( Q(r, [c,d]) · ⅛ ) · K(row k of r's sequence, [c,d])      (the factor ⅛ kept as its 16-bit word)
      attnFlat (r, c)     = Σ_k softmax_k(scoreFlat (r, c, ·)) · V(row k of r's sequence, c)
      outFlat (r, e)      = Σ_c A(r, c) · Wo(e, c) + bo(e)

  Here the score scales the query before the product with the key; the other form divides the finished product by √64.
-/
import proofs.«110166_j78443282694529_2_alg».proof.Proof.Spec

noncomputable section

namespace Cert.Mha

open Idealize.ShloMosaic Idealize.ShloMosaic.ValueIdx

abbrev SF : Shape := ⟨2, ![8192, 1024]⟩

/-- Column e of part j in the fused projection. -/
def pcol (j : Fin 3) (e : Fin 1024) : Fin 3072 :=
  ⟨j.val * 1024 + e.val, by have := j.isLt; have := e.isLt; omega⟩

/-- Row k of the sequence that row r belongs to. -/
def keyRow (r : Fin 8192) (k : Fin 2048) : Fin 8192 :=
  ⟨r.val / 2048 * 2048 + k.val, by have := r.isLt; have := k.isLt; omega⟩

/-- Lane d of the head that column c belongs to. -/
def headCol (c : Fin 1024) (d : Fin 64) : Fin 1024 :=
  ⟨c.val / 64 * 64 + d.val, by have := c.isLt; have := d.isLt; omega⟩

/-- The factor the queries are scaled by: the 16-bit word of one eighth. -/
def scale : EReal := Ideal.ofBits .bf16 0x3E00#16

/-- Part j of the fused projection of flattened activations. -/
def projFlat (j : Fin 3) (X : SF.Idx → EReal) (W : SW.Idx → EReal) (bq : SB.Idx → EReal) : SF.Idx → EReal :=
  fun i => (∑ d : Fin 1024, X (ix2 (i 0) d) * W (ix2 (pcol j (i 1)) d)) + bq (ix1 (pcol j (i 1)))

section
variable (Q K V : SF.Idx → EReal)

/-- The score of row r against key k in the head of column c, the query scaled first. -/
def scoreFlat (r : Fin 8192) (c : Fin 1024) (k : Fin 2048) : EReal :=
  ∑ d : Fin 64, (Q (ix2 r (headCol c d)) * scale) * K (ix2 (keyRow r k) (headCol c d))

def expoFlat (r : Fin 8192) (c : Fin 1024) (k : Fin 2048) : EReal :=
  Ideal.exp (scoreFlat Q K r c k - rowMax (scoreFlat Q K r c))

def probFlat (r : Fin 8192) (c : Fin 1024) (k : Fin 2048) : EReal :=
  Ideal.div (expoFlat Q K r c k) (∑ k' : Fin 2048, expoFlat Q K r c k')

/-- The attended values in the flattened layout. -/
def attnFlat : SF.Idx → EReal :=
  fun i => ∑ k : Fin 2048, probFlat Q K (i 0) (i 1) k * V (ix2 (keyRow (i 0) k) (i 1))

end

/-- The output projection in the flattened layout. -/
def outFlat (A : SF.Idx → EReal) (Wo : SWo.Idx → EReal) (bo : SBo.Idx → EReal) : SF.Idx → EReal :=
  fun i => (∑ c : Fin 1024, A (ix2 (i 0) c) * Wo (ix2 (i 1) c)) + bo (ix1 (i 1))

/-- The activations with their two leading axes merged: row r is position r % 2048 of sequence r / 2048. -/
def flatten (x : SX.Idx → EReal) : SF.Idx → EReal :=
  fun i => x (ix3 (⟨(i 0).val / 2048, by have h : (i 0).val < 8192 := (i 0).isLt; omega⟩ : Fin 4)
    (⟨(i 0).val % 2048, Nat.mod_lt _ (by decide)⟩ : Fin 2048) (i 1))

/-- The whole computation in the flattened layout. -/
def flatResult (x : SX.Idx → EReal) (W : SW.Idx → EReal) (bq : SB.Idx → EReal) (Wo : SWo.Idx → EReal) (bo : SBo.Idx → EReal) :
    SF.Idx → EReal :=
  outFlat (attnFlat (projFlat 0 (flatten x) W bq) (projFlat 1 (flatten x) W bq) (projFlat 2 (flatten x) W bq)) Wo bo

end Cert.Mha

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.FlatBridge.lean ====
/-
  The attention on flattened activations is the specification, row by row.

  Row r = b · 2048 + s of the flattened [8192, 1024] layout is position s of sequence b, and column c of the model
  width is lane c % 64 of head c / 64. Under this reading every stage of the flattened computation is the matching
  stage of the specification:

      projFlat j (r, e)    = qkv(b, s, j·1024 + e)
      scoreFlat (r, c, k)  = score(b, c / 64, s, k)
      attnFlat (r, c)      = ctx(b, c / 64, s, c % 64)
      outFlat (r, e)       = out(b, s, e)

  Only the scores need an algebraic law: the flattened form multiplies each query lane by ⅛ before the product with
  the key lane, the specification divides the finished sum by √64 = 8. For real numbers
      Σ_d (q_d · ⅛) · k_d = ( Σ_d q_d · k_d ) / 8 ;
  on the extended reals this needs the q_d and k_d finite, which they are when x, W and bq have real entries: each
  projection is a finite sum of products of reals plus a real. The later stages (maximum, exponential, quotient,
  weighted sum, output projection) are functions of the scores and of the projections, so they agree by congruence.
-/
import proofs.«110166_j78443282694529_2_alg».proof.Proof.FlatSpec
import proofs.«110166_j78443282694529_2_alg».proof.Proof.LibMoments
import Idealize.ShloMosaic.PureOps.Ideal.Laws

noncomputable section

namespace Cert.Mha

open Idealize.ShloMosaic Idealize.ShloMosaic.ValueIdx

/-! ## The two constants -/

/-- The 16-bit word 0x3E00 (sign 0, exponent 124, fraction 0) is 2^(124 − 127) = ⅛. -/
theorem scale_eq : scale = ((1 / 8 : ℝ) : EReal) := by
  unfold scale
  simp [Ideal.ofBits, Ideal.ieee]
  rw [← EReal.coe_mul]
  refine congrArg (fun t : ℝ => (t : EReal)) ?_
  norm_num

/-- The 32-bit word 0x42800000 (sign 0, exponent 133, fraction 0) is 2^(133 − 127) = 64. -/
theorem word64_eq : Ideal.ofBits .f32 0x42800000#32 = ((64 : ℝ) : EReal) := by
  simp [Ideal.ofBits, Ideal.ieee]
  rw [← EReal.coe_mul]
  refine congrArg (fun t : ℝ => (t : EReal)) ?_
  norm_num

/-- The divisor of the scores is √64 = 8. -/
theorem sqrtDk_eq : sqrtDk = ((8 : ℝ) : EReal) := by
  unfold sqrtDk
  rw [word64_eq, Ideal.sqrt_coe, if_neg (by norm_num)]
  have h : Real.sqrt 64 = 8 := by
    rw [show (64 : ℝ) = 8 * 8 by norm_num]
    exact Real.sqrt_mul_self (by norm_num)
  rw [h]

/-! ## Rows and columns -/

/-- Lane d of column c's head, in part j of the fused projection, is column [j, c / 64, d]. -/
theorem pcol_headCol (j : Fin 3) (c : Fin 1024) (d : Fin 64) : pcol j (headCol c d) = col j (headOf c) d :=
  Fin.ext (by
    show j.val * 1024 + (c.val / 64 * 64 + d.val) = j.val * 1024 + c.val / 64 * 64 + d.val
    omega)

/-- Column c of part j is lane c % 64 of head c / 64 of that part. -/
theorem pcol_eq_col (j : Fin 3) (c : Fin 1024) : pcol j c = col j (headOf c) (laneOf c) :=
  Fin.ext (by
    show j.val * 1024 + c.val = j.val * 1024 + c.val / 64 * 64 + c.val % 64
    omega)

/-- Row k of the sequence of row b · 2048 + s is row b · 2048 + k. -/
theorem keyRow_val (b : Fin 4) (s k : Fin 2048) (r : Fin 8192) (hr : r.val = b.val * 2048 + s.val) :
    (keyRow r k).val = b.val * 2048 + k.val := by
  have hs := s.isLt
  show r.val / 2048 * 2048 + k.val = b.val * 2048 + k.val
  omega

section
variable (x : SX.Idx → EReal) (W : SW.Idx → EReal) (bq : SB.Idx → EReal)

/-! ## The projections -/

/-- Row b · 2048 + s of the flattened activations is position s of sequence b. -/
theorem flatten_apply (b : Fin 4) (s : Fin 2048) (d : Fin 1024) (r : Fin 8192) (hr : r.val = b.val * 2048 + s.val) :
    flatten x (ix2 r d) = x (ix3 b s d) := by
  have hs := s.isLt
  have h0 : (⟨r.val / 2048, by have := r.isLt; omega⟩ : Fin 4) = b :=
    Fin.ext (by show r.val / 2048 = b.val; omega)
  have h1 : (⟨r.val % 2048, Nat.mod_lt _ (by decide)⟩ : Fin 2048) = s :=
    Fin.ext (by show r.val % 2048 = s.val; omega)
  show x (ix3 (⟨r.val / 2048, _⟩ : Fin 4) (⟨r.val % 2048, _⟩ : Fin 2048) d) = x (ix3 b s d)
  rw [h0, h1]

/-- Part j of the flattened projection at row b · 2048 + s is the fused projection at (b, s). -/
theorem projFlat_apply (j : Fin 3) (b : Fin 4) (s : Fin 2048) (e : Fin 1024) (r : Fin 8192)
    (hr : r.val = b.val * 2048 + s.val) :
    projFlat j (flatten x) W bq (ix2 r e) = qkv x W bq b s (pcol j e) := by
  show (∑ d : Fin 1024, flatten x (ix2 r d) * W (ix2 (pcol j e) d)) + bq (ix1 (pcol j e)) = _
  unfold qkv
  refine congrArg (· + bq (ix1 (pcol j e))) ?_
  exact Finset.sum_congr rfl fun d _ => by rw [flatten_apply x b s d r hr]

/-- With real entries the fused projection is real: a finite sum of products of reals plus a real. -/
theorem qkv_real (hx : ∀ i, ∃ r : ℝ, x i = (r : EReal)) (hW : ∀ i, ∃ r : ℝ, W i = (r : EReal))
    (hb : ∀ i, ∃ r : ℝ, bq i = (r : EReal)) (b : Fin 4) (s : Fin 2048) (e : Fin 3072) :
    ∃ r : ℝ, qkv x W bq b s e = (r : EReal) := by
  unfold qkv
  exact Moments.Fin'.add (Moments.Fin'.sum _ _ fun d _ => Moments.Fin'.mul (hx _) (hW _)) (hb _)

/-! ## The scores -/

/-- Scaling every first factor by ⅛ divides the sum of the products by 8. -/
theorem scaled_dot (q k : Fin 64 → ℝ) :
    ∑ d : Fin 64, ((q d : EReal) * ((1 / 8 : ℝ) : EReal)) * (k d : EReal)
      = Ideal.div (∑ d : Fin 64, (q d : EReal) * (k d : EReal)) ((8 : ℝ) : EReal) := by
  rw [Ideal.div_coe (by norm_num : (8 : ℝ) ≠ 0)]
  simp only [← EReal.coe_mul, ← Moments.coe_sum]
  refine congrArg (fun t : ℝ => (t : EReal)) ?_
  rw [Finset.sum_mul]
  exact Finset.sum_congr rfl fun d _ => by ring

variable (hx : ∀ i, ∃ r : ℝ, x i = (r : EReal)) (hW : ∀ i, ∃ r : ℝ, W i = (r : EReal))
  (hb : ∀ i, ∃ r : ℝ, bq i = (r : EReal))
include hx hW hb

/-- The flattened score of row b · 2048 + s in the head of column c is the score of head c / 64 at query s. -/
theorem scoreFlat_eq (b : Fin 4) (s : Fin 2048) (r : Fin 8192) (hr : r.val = b.val * 2048 + s.val)
    (c : Fin 1024) (k : Fin 2048) :
    scoreFlat (projFlat 0 (flatten x) W bq) (projFlat 1 (flatten x) W bq) r c k
      = score x W bq b (headOf c) s k := by
  have hQ : ∀ d : Fin 64, projFlat 0 (flatten x) W bq (ix2 r (headCol c d))
      = qkv x W bq b s (col 0 (headOf c) d) := fun d => by
    rw [projFlat_apply x W bq 0 b s (headCol c d) r hr, pcol_headCol]
  have hK : ∀ d : Fin 64, projFlat 1 (flatten x) W bq (ix2 (keyRow r k) (headCol c d))
      = qkv x W bq b k (col 1 (headOf c) d) := fun d => by
    rw [projFlat_apply x W bq 1 b k (headCol c d) (keyRow r k) (keyRow_val b s k r hr), pcol_headCol]
  unfold scoreFlat score
  rw [scale_eq, sqrtDk_eq]
  simp only [hQ, hK]
  choose qf hqf using fun d : Fin 64 => qkv_real x W bq hx hW hb b s (col 0 (headOf c) d)
  choose kf hkf using fun d : Fin 64 => qkv_real x W bq hx hW hb b k (col 1 (headOf c) d)
  simp only [hqf, hkf]
  exact scaled_dot qf kf

/-- The rows of scores agree as functions of the key. -/
theorem scoreFlat_row (b : Fin 4) (s : Fin 2048) (r : Fin 8192) (hr : r.val = b.val * 2048 + s.val) (c : Fin 1024) :
    scoreFlat (projFlat 0 (flatten x) W bq) (projFlat 1 (flatten x) W bq) r c = score x W bq b (headOf c) s :=
  funext fun k => scoreFlat_eq x W bq hx hW hb b s r hr c k

/-! ## Softmax and the attended values -/

theorem expoFlat_eq (b : Fin 4) (s : Fin 2048) (r : Fin 8192) (hr : r.val = b.val * 2048 + s.val)
    (c : Fin 1024) (k : Fin 2048) :
    expoFlat (projFlat 0 (flatten x) W bq) (projFlat 1 (flatten x) W bq) r c k
      = expo x W bq b (headOf c) s k := by
  unfold expoFlat expo
  rw [scoreFlat_row x W bq hx hW hb b s r hr c]

theorem probFlat_eq (b : Fin 4) (s : Fin 2048) (r : Fin 8192) (hr : r.val = b.val * 2048 + s.val)
    (c : Fin 1024) (k : Fin 2048) :
    probFlat (projFlat 0 (flatten x) W bq) (projFlat 1 (flatten x) W bq) r c k
      = prob x W bq b (headOf c) s k := by
  unfold probFlat prob
  rw [expoFlat_eq x W bq hx hW hb b s r hr c k]
  refine congrArg (Ideal.div _) ?_
  exact Finset.sum_congr rfl fun k' _ => expoFlat_eq x W bq hx hW hb b s r hr c k'

/-- The attended values at row b · 2048 + s, column c, are lane c % 64 of head c / 64 at query s. -/
theorem attnFlat_eq (b : Fin 4) (s : Fin 2048) (r : Fin 8192) (hr : r.val = b.val * 2048 + s.val) (c : Fin 1024) :
    attnFlat (projFlat 0 (flatten x) W bq) (projFlat 1 (flatten x) W bq) (projFlat 2 (flatten x) W bq) (ix2 r c)
      = ctx x W bq b (headOf c) s (laneOf c) := by
  show ∑ k : Fin 2048, probFlat (projFlat 0 (flatten x) W bq) (projFlat 1 (flatten x) W bq) r c k
      * projFlat 2 (flatten x) W bq (ix2 (keyRow r k) c) = _
  unfold ctx
  refine Finset.sum_congr rfl fun k _ => ?_
  rw [probFlat_eq x W bq hx hW hb b s r hr c k,
    projFlat_apply x W bq 2 b k c (keyRow r k) (keyRow_val b s k r hr), pcol_eq_col]

end

/-! ## The output projection -/

/-- The flattened computation at row b · 2048 + s is the specification at (b, s). -/
theorem flatResult_eq (x : SX.Idx → EReal) (W : SW.Idx → EReal) (bq : SB.Idx → EReal) (Wo : SWo.Idx → EReal)
    (bo : SBo.Idx → EReal)
    (hx : ∀ i, ∃ r : ℝ, x i = (r : EReal)) (hW : ∀ i, ∃ r : ℝ, W i = (r : EReal))
    (hb : ∀ i, ∃ r : ℝ, bq i = (r : EReal))
    (b : Fin 4) (s : Fin 2048) (e : Fin 1024) (r : Fin 8192) (hr : r.val = b.val * 2048 + s.val) :
    flatResult x W bq Wo bo (ix2 r e) = out x W bq Wo bo b s e := by
  show (∑ c : Fin 1024,
      attnFlat (projFlat 0 (flatten x) W bq) (projFlat 1 (flatten x) W bq) (projFlat 2 (flatten x) W bq) (ix2 r c)
        * Wo (ix2 e c)) + bo (ix1 e) = _
  unfold out
  refine congrArg (· + bo (ix1 e)) ?_
  exact Finset.sum_congr rfl fun c _ => by rw [attnFlat_eq x W bq hx hW hb b s r hr c]

end Cert.Mha

end
-- ==== Proof.RefValue.lean ====
/-
  The reference program computes the attention specification: each stage of its 39 host operations, read at an index
  built from literal coordinates, is the corresponding function of the specification.
-/
import proofs.«110166_j78443282694529_2_alg».proof.Proof.Spec
import proofs.«110166_j78443282694529_2_alg».proof.Proof.Gen.ReferenceIdeal.Read
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mha

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-! ## The fused projection -/

/-- The fused projection with its bias, at position (b, s) and column e. -/
theorem v3_eq (b : Fin 4) (s : Fin 2048) (e : Fin 3072) :
    val_main_v3 (F := Ideal) x0 x1 x2 (ix3 b s e) = qkv x0 x1 x2 b s e := by
  rw [val_main_v3_apply, val_main_v0_apply, val_main_v2_apply, val_main_v1_apply]
  unfold qkv
  refine congrArg₂ (· + ·) (Finset.sum_congr rfl fun k _ => ?_) ?_
  · refine congrArg₂ (· * ·) (congrArg x0 (funext fun a => ?_)) (congrArg x1 (funext fun a => ?_))
    · match a with | ⟨0, _⟩ => rfl | ⟨1, _⟩ => rfl | ⟨2, _⟩ => rfl
    · match a with | ⟨0, _⟩ => rfl | ⟨1, _⟩ => rfl
  · refine congrArg x2 (funext fun a => ?_)
    match a with | ⟨0, _⟩ => rfl

/-! ## Splitting the projection into the heads' queries, keys and values

A slice at column offset p · 1024, the reshape of the 1024 columns into 16 heads of 64 lanes, and the exchange of the
position and head axes read the projection at position s, column p · 1024 + h · 64 + d. -/

theorem idx_q (b : Fin 4) (h : Fin 16) (s : Fin 2048) (d : Fin 64) :
    idx_main_v4 (idx_main_v7 (idx_main_v8 (ix4 b h s d))) = ix3 b s (col 0 h d) := by
  funext a
  refine Fin.ext ?_
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 0 * 1024 + h.val * 64 + d.val; omega

theorem idx_k (b : Fin 4) (h : Fin 16) (s : Fin 2048) (d : Fin 64) :
    idx_main_v5 (idx_main_v9 (idx_main_v10 (ix4 b h s d))) = ix3 b s (col 1 h d) := by
  funext a
  refine Fin.ext ?_
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 1024 + (((b.val * 2048 + s.val) * 16 + h.val) * 64 + d.val) % 1024 = 1 * 1024 + h.val * 64 + d.val; omega

theorem idx_v (b : Fin 4) (h : Fin 16) (s : Fin 2048) (d : Fin 64) :
    idx_main_v6 (idx_main_v11 (idx_main_v12 (ix4 b h s d))) = ix3 b s (col 2 h d) := by
  funext a
  refine Fin.ext ?_
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 2048 + (((b.val * 2048 + s.val) * 16 + h.val) * 64 + d.val) % 1024 = 2 * 1024 + h.val * 64 + d.val; omega

/-- The queries: lane d of head h at position s. -/
theorem v8_eq (b : Fin 4) (h : Fin 16) (s : Fin 2048) (d : Fin 64) :
    val_main_v8 (F := Ideal) x0 x1 x2 (ix4 b h s d) = qkv x0 x1 x2 b s (col 0 h d) := by
  rw [val_main_v8_apply, val_main_v7_apply, val_main_v4_apply]
  exact (congrArg (val_main_v3 (F := Ideal) x0 x1 x2) (idx_q b h s d)).trans (v3_eq x0 x1 x2 b s (col 0 h d))

/-- The keys. -/
theorem v10_eq (b : Fin 4) (h : Fin 16) (s : Fin 2048) (d : Fin 64) :
    val_main_v10 (F := Ideal) x0 x1 x2 (ix4 b h s d) = qkv x0 x1 x2 b s (col 1 h d) := by
  rw [val_main_v10_apply, val_main_v9_apply, val_main_v5_apply]
  exact (congrArg (val_main_v3 (F := Ideal) x0 x1 x2) (idx_k b h s d)).trans (v3_eq x0 x1 x2 b s (col 1 h d))

/-- The values. -/
theorem v12_eq (b : Fin 4) (h : Fin 16) (s : Fin 2048) (d : Fin 64) :
    val_main_v12 (F := Ideal) x0 x1 x2 (ix4 b h s d) = qkv x0 x1 x2 b s (col 2 h d) := by
  rw [val_main_v12_apply, val_main_v11_apply, val_main_v6_apply]
  exact (congrArg (val_main_v3 (F := Ideal) x0 x1 x2) (idx_v b h s d)).trans (v3_eq x0 x1 x2 b s (col 2 h d))

/-! ## The scores -/

/-- The scaled score of query position q against key position k. -/
theorem v16_eq (b : Fin 4) (h : Fin 16) (q k : Fin 2048) :
    val_main_v16 (F := Ideal) x0 x1 x2 (ix4 b h q k) = score x0 x1 x2 b h q k := by
  rw [val_main_v16_apply, val_main_v13_apply, val_main_v15_apply, val_main_v14_apply, val_main_cst_apply,
    Ideal.hostDivf_def, Ideal.hostUnary_sqrt_def, Ideal.ofBits_def]
  unfold score sqrtDk
  refine congrArg (fun t => Ideal.div t _) (Finset.sum_congr rfl fun d _ => ?_)
  have el : lidx_main_v13 (ix4 b h q k) d = ix4 b h q d := funext fun a => by
    match a with | ⟨0, _⟩ => rfl | ⟨1, _⟩ => rfl | ⟨2, _⟩ => rfl | ⟨3, _⟩ => rfl
  have er : ridx_main_v13 (ix4 b h q k) d = ix4 b h k d := funext fun a => by
    match a with | ⟨0, _⟩ => rfl | ⟨1, _⟩ => rfl | ⟨2, _⟩ => rfl | ⟨3, _⟩ => rfl
  rw [el, er, v8_eq, v10_eq]

/-! ## The row maximum -/

/-- The index over (b, h, q) with key position k put back on the reduced axis is (b, h, q, k). -/
theorem lift_ix4 (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-- The word of −∞ is the bottom of the extended reals. -/
theorem negInf_eq_bot : Ideal.ofBits .f32 0xFF800000#32 = (⊥ : EReal) := by simp [Ideal.ofBits, Ideal.ieee]

/-- The maximum-reduce over the keys is the fold of the maximum from −∞ over the row of scores. -/
theorem v17_eq (b : Fin 4) (h : Fin 16) (q : Fin 2048) :
    val_main_v17 (F := Ideal) x0 x1 x2 (ix3 b h q) = rowMax (score x0 x1 x2 b h q) := by
  unfold val_main_v17
  have hr : S4x16x2048x2048.Reduces [3] S4x16x2048 := by decide
  rw [Host.reduce_eq_fold_single FloatOps.maximumf _ _ reducesTo_S4x16x2048x2048_S4x16x2048_d3 hr h_S_]
  have hf : (val_main_v16 (F := Ideal) x0 x1 x2 ∘ hr.lift (ix3 b h q)) = score x0 x1 x2 b h q := funext fun k =>
    (congrArg (val_main_v16 (F := Ideal) x0 x1 x2) (lift_ix4 hr b h q k)).trans (v16_eq x0 x1 x2 b h q ⟨k.val, k.isLt⟩)
  rw [hf]
  rfl

/-- The maximum with the broadcast −∞ changes nothing. -/
theorem v19_eq (b : Fin 4) (h : Fin 16) (q : Fin 2048) :
    val_main_v19 (F := Ideal) x0 x1 x2 (ix3 b h q) = rowMax (score x0 x1 x2 b h q) := by
  rw [val_main_v19_apply, val_main_v18_apply, val_main_cst_1_apply, v17_eq, Ideal.maximumf_def, Ideal.ofBits_def]
  exact max_eq_right (by rw [negInf_eq_bot]; exact bot_le)

/-! ## The softmax -/

/-- The exponential of a score shifted by its row's maximum (the maximum is broadcast back along the keys). -/
theorem v23_eq (b : Fin 4) (h : Fin 16) (q k : Fin 2048) :
    val_main_v23 (F := Ideal) x0 x1 x2 (ix4 b h q k) = expo x0 x1 x2 b h q k := by
  rw [val_main_v23_apply, val_main_v22_apply, val_main_v21_apply, val_main_v20_apply, Ideal.hostUnary_exp_def,
    Ideal.subf_def, v16_eq]
  have e : idx_main_v20 (idx_main_v21 (ix4 b h q k)) = ix3 b h q := funext fun a => by
    match a with | ⟨0, _⟩ => rfl | ⟨1, _⟩ => rfl | ⟨2, _⟩ => rfl
  rw [e, v19_eq]
  rfl

/-- The sum of a row of exponentials (the sum starts from the zero word). -/
theorem v24_eq (b : Fin 4) (h : Fin 16) (q : Fin 2048) :
    val_main_v24 (F := Ideal) x0 x1 x2 (ix3 b h q) = ∑ k : Fin 2048, expo x0 x1 x2 b h q k := by
  rw [val_main_v24_apply, val_main_cst_2_apply, Ideal.ofBits_def, Ideal.ofBits_zero_f32, zero_add]
  refine Finset.sum_congr rfl fun k _ => ?_
  have e : idx_main_v24 (ix3 b h q) k = ix4 b h q k := funext fun a => by
    match a with | ⟨0, _⟩ => rfl | ⟨1, _⟩ => rfl | ⟨2, _⟩ => rfl | ⟨3, _⟩ => rfl
  rw [e, v23_eq]

/-- The attention weight: the exponential over its row's sum (the sum is broadcast back along the keys). -/
theorem v27_eq (b : Fin 4) (h : Fin 16) (q k : Fin 2048) :
    val_main_v27 (F := Ideal) x0 x1 x2 (ix4 b h q k) = prob x0 x1 x2 b h q k := by
  rw [val_main_v27_apply, val_main_v26_apply, val_main_v25_apply, Ideal.hostDivf_def, v23_eq]
  have e : idx_main_v25 (idx_main_v26 (ix4 b h q k)) = ix3 b h q := funext fun a => by
    match a with | ⟨0, _⟩ => rfl | ⟨1, _⟩ => rfl | ⟨2, _⟩ => rfl
  rw [e, v24_eq]
  rfl

/-! ## The attended values and the output projection -/

/-- Lane d of head h at query position q: the weights against the values. -/
theorem v28_eq (b : Fin 4) (h : Fin 16) (q : Fin 2048) (d : Fin 64) :
    val_main_v28 (F := Ideal) x0 x1 x2 (ix4 b h q d) = ctx x0 x1 x2 b h q d := by
  rw [val_main_v28_apply]
  unfold ctx
  refine Finset.sum_congr rfl fun k _ => ?_
  have el : lidx_main_v28 (ix4 b h q d) k = ix4 b h q k := funext fun a => by
    match a with | ⟨0, _⟩ => rfl | ⟨1, _⟩ => rfl | ⟨2, _⟩ => rfl | ⟨3, _⟩ => rfl
  have er : ridx_main_v28 (ix4 b h q d) k = ix4 b h k d := funext fun a => by
    match a with | ⟨0, _⟩ => rfl | ⟨1, _⟩ => rfl | ⟨2, _⟩ => rfl | ⟨3, _⟩ => rfl
  rw [el, er, v27_eq, v12_eq]

/-- Merging the heads: the exchange of the head and position axes and the reshape of 16 heads of 64 lanes into 1024
    columns read column c at head c / 64, lane c % 64. -/
theorem idx_merge (b : Fin 4) (s : Fin 2048) (c : Fin 1024) :
    idx_main_v29 (idx_main_v30 (ix3 b s c)) = ix4 b (headOf c) s (laneOf c) := by
  funext a
  refine Fin.ext ?_
  have hb := b.isLt; have hs := s.isLt; have hc := c.isLt
  match a with
  | ⟨0, _⟩ => show ((b.val * 2048 + s.val) * 1024 + c.val) / 2097152 = b.val; omega
  | ⟨1, _⟩ => show ((b.val * 2048 + s.val) * 1024 + c.val) / 64 % 16 = c.val / 64; omega
  | ⟨2, _⟩ => show ((b.val * 2048 + s.val) * 1024 + c.val) / 1024 % 2048 = s.val; omega
  | ⟨3, _⟩ => show ((b.val * 2048 + s.val) * 1024 + c.val) % 64 = c.val % 64; omega

theorem v30_eq (b : Fin 4) (s : Fin 2048) (c : Fin 1024) :
    val_main_v30 (F := Ideal) x0 x1 x2 (ix3 b s c) = ctx x0 x1 x2 b (headOf c) s (laneOf c) := by
  rw [val_main_v30_apply, val_main_v29_apply]
  exact (congrArg (val_main_v28 (F := Ideal) x0 x1 x2) (idx_merge b s c)).trans (v28_eq x0 x1 x2 b (headOf c) s (laneOf c))

/-- The output projection with its bias. -/
theorem v34_eq (b : Fin 4) (s : Fin 2048) (e : Fin 1024) :
    val_main_v34 (F := Ideal) x0 x1 x2 x3 x4 (ix3 b s e) = out x0 x1 x2 x3 x4 b s e := by
  rw [val_main_v34_apply, val_main_v31_apply, val_main_v33_apply, val_main_v32_apply, Ideal.addf_def]
  unfold out
  refine congrArg₂ (· + ·) (Finset.sum_congr rfl fun k _ => ?_) ?_
  · have el : lidx_main_v31 (ix3 b s e) k = ix3 b s k := funext fun a => by
      match a with | ⟨0, _⟩ => rfl | ⟨1, _⟩ => rfl | ⟨2, _⟩ => rfl
    rw [el, v30_eq]
    refine congrArg (_ * ·) (congrArg x3 (funext fun a => ?_))
    match a with | ⟨0, _⟩ => rfl | ⟨1, _⟩ => rfl
  · refine congrArg x4 (funext fun a => ?_)
    match a with | ⟨0, _⟩ => rfl

/-- The reference program's result is the specification. -/
theorem result_eq (x0 : (⟨S4x2048x1024, .f32⟩ : BufTy).Contents (Elt Ideal)) (x1 : (⟨S3072x1024, .f32⟩ : BufTy).Contents (Elt Ideal)) (x2 : (⟨S3072, .f32⟩ : BufTy).Contents (Elt Ideal)) (x3 : (⟨S1024x1024, .f32⟩ : BufTy).Contents (Elt Ideal)) (x4 : (⟨S1024, .f32⟩ : BufTy).Contents (Elt Ideal)) :
    val_main_v34 (F := Ideal) x0 x1 x2 x3 x4 = Cert.Mha.G x0 x1 x2 x3 x4 := by
  funext i
  obtain ⟨b, s, e, rfl⟩ : ∃ (b : Fin 4) (s : Fin 2048) (e : Fin 1024), i = ix3 b s e := ⟨i 0, i 1, i 2, eq_ix3 i⟩
  rw [G_ix3]
  exact v34_eq x0 x1 x2 x3 x4 b s e

end Cert.ReferenceIdeal.RefValue

end
-- ==== Proof.Finite.lean ====
/-
  Finite inputs are real numbers. The precondition says, of each argument array, that every entry's absolute value
  compares strictly below +∞. On the extended reals |a| = max a (−a), which is +∞ at both infinities; so an entry that
  passes is neither of them: it is (the coercion of) a real number. Read off here for the activations, the fused
  projection matrix and its bias — the three arrays whose finiteness the law between the two score forms needs.
-/
import proofs.«110166_j78443282694529_2_alg».proof.Defs
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem Cert.KernelIdeal

/-- An extended real whose absolute value `max a (-a)` compares strictly below `⊤` is a real number:
    at `⊥` the maximum is `max ⊥ ⊤ = ⊤`, at `⊤` it is `⊤`, and neither is strictly below `⊤`. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- The f32 pattern `0x7F800000` (sign 0, exponent all ones, fraction 0) denotes `⊤`. -/
theorem ofBits_inf : Ideal.ofBits .f32 0x7F800000#32 = (⊤ : EReal) := by
  simp [Ideal.ofBits, Ideal.ieee]

/-- The rank-0 shape has exactly one index. -/
instance : Subsingleton Cert.Pre_finite_inputs.S_.Idx := ⟨fun a b => funext fun d => d.elim0⟩

/-- One conjunct of the predicate, read back: if the `and` over all of `|x| < +inf` is 1, every entry of `x` is a real.
    The reduction being 1 gives the comparison 1 at each index; there the comparison is `max (x i) (-(x i)) < ⊤`. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) .olt (Host.absf (F := Ideal) x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) := by
  have hi := Host.reduce_andi_all _ _ hr hu ValueIdx.ix0 e i
  refine real_of_abs_lt_top (x i) ?_
  rw [← ofBits_inf]
  exact hi

theorem of_pre [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn, Cert.Pre_finite_inputs.fn_part1] at h0
  -- the predicate is (((a0 ∧ a1) ∧ a2) ∧ a3) ∧ a4 on one-bit words: each conjunct is 1
  obtain ⟨h0123, _⟩ := IntOp.andi_eq_one.1 h0
  obtain ⟨h012, _⟩ := IntOp.andi_eq_one.1 h0123
  obtain ⟨h01, e2⟩ := IntOp.andi_eq_one.1 h012
  obtain ⟨e0, e1⟩ := IntOp.andi_eq_one.1 h01
  exact ⟨fun i => real_of_all _ _ _ _ e0 i, fun i => real_of_all _ _ _ _ e1 i, fun i => real_of_all _ _ _ _ e2 i⟩

end Cert.KernelIdeal.Finite

end
-- ==== Proof.KernelRun.lean ====
/-
  The idealized program's run with its RESULT named. Every weakly fair execution of the program from a memory with zero
  counters terminates without a fault; in every final state the result array [4, 2048, 1024] holds what the last
  segment boundary's contents hold at that buffer — the contents after the three kernel regions and the closing
  reshape, each boundary's contents a function of the previous one's —, and the five argument arrays are as launched.
  The run itself is the launch of the program's five segments (a stretch of host operations, the three regions, a
  stretch of host operations) one after the other; only the final read is wider than the frame's: the result buffer
  is among the buffers the last thread state holds, so its final contents are read back with the arguments'.
-/
import proofs.«110166_j78443282694529_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments unchanged. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.Region0.lean ====
/-
  The first kernel region: the fused query / key / value projection. Each of its 16 grid points takes 512 rows of the
  flattened activations X, the whole [3072, 1024] matrix W and the whole [3072] bias b, forms the 512 × 3072 product
  X · Wᵀ + b, and writes its three column bands of width 1024 to three output arrays. So, whatever arrays the region is
  entered with, output j ends holding  projFlat j X W b  (FlatSpec): entry (r, e) is Σ_d X(r, d) · W(j·1024 + e, d) + b(j·1024 + e).
-/
import proofs.«110166_j78443282694529_2_alg».proof.Proof.Gen.KernelIdeal.Frame
import proofs.«110166_j78443282694529_2_alg».proof.Proof.FlatSpec
import proofs.«110166_j78443282694529_2_alg».proof.Proof.LibTransposedMatmul
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Mha

theorem hz2 : (![0, 0] : Fin 2 → Nat) = fun _ => 0 := funext fun a => by fin_cases a <;> rfl
theorem hz1 : (![0] : Fin 1 → Nat) = fun _ => 0 := funext fun a => by fin_cases a <;> rfl

/-- The printed contraction record is the product with the right operand contracted on its last axis. -/
theorem dims_eq : dot_S512x1024_S3072x1024_S512x3072_1_1_0_0_n_n = DotDims.transposedRhs 512 1024 3072 := rfl

/-- The full 512 × 3072 product at row y, column e: Σ_d x(y, d) · w(e, d) + b(e). -/
theorem pay1_apply (x0 : Vec Ideal S512x1024 .bf16) (x1 : Vec Ideal S3072x1024 .bf16) (x2 : Vec Ideal S3072 .f32)
    (y : Fin 512) (e : Fin 3072) :
    k0_pay1 x0 x1 x2 (ix2 y e) = (∑ d : Fin 1024, x0 (ix2 y d) * x1 (ix2 e d)) + x2 (ix1 e) := by
  unfold k0_pay1
  simp only [shapeCast_self]
  rw [addf_apply, broadcastTo_1b_ab_apply, shapeCast_a_1a_apply]
  refine congrArg (· + x2 (ix1 e)) ?_
  simp only [matmul]
  rw [dims_eq]
  exact TransposedMatmul.apply_zero x0 x1 y e

/-- Band 0 of the product (columns 0 … 1023), narrowed: at (y, e) it is the product at column 0·1024 + e. -/
theorem pay2_apply (x0 : Vec Ideal S512x1024 .bf16) (x1 : Vec Ideal S3072x1024 .bf16) (x2 : Vec Ideal S3072 .f32)
    (y : Fin 512) (e : Fin 1024) :
    k0_pay2 x0 x1 x2 (ix2 y e) = (∑ d : Fin 1024, x0 (ix2 y d) * x1 (ix2 (pcol 0 e) d)) + x2 (ix1 (pcol 0 e)) := by
  show extractStridedSlice S512x1024 ![0, 0] (k0_pay1 x0 x1 x2) slices_S512x3072_o0_0_S512x1024 (ix2 y e) = _
  have hk : (pcol 0 e).val = 0 + e.val := by show 0 * 1024 + e.val = 0 + e.val; omega
  exact (slice2_axis1_apply 0 (k0_pay1 x0 x1 x2) slices_S512x3072_o0_0_S512x1024 y e (pcol 0 e) hk).trans (pay1_apply x0 x1 x2 y (pcol 0 e))

/-- Band 1 of the product (columns 1024 … 2047), narrowed: at (y, e) it is the product at column 1·1024 + e. -/
theorem pay3_apply (x0 : Vec Ideal S512x1024 .bf16) (x1 : Vec Ideal S3072x1024 .bf16) (x2 : Vec Ideal S3072 .f32)
    (y : Fin 512) (e : Fin 1024) :
    k0_pay3 x0 x1 x2 (ix2 y e) = (∑ d : Fin 1024, x0 (ix2 y d) * x1 (ix2 (pcol 1 e) d)) + x2 (ix1 (pcol 1 e)) := by
  show extractStridedSlice S512x1024 ![0, 1024] (k0_pay1 x0 x1 x2) slices_S512x3072_o0_1024_S512x1024 (ix2 y e) = _
  have hk : (pcol 1 e).val = 1024 + e.val := by show 1 * 1024 + e.val = 1024 + e.val; omega
  exact (slice2_axis1_apply 1024 (k0_pay1 x0 x1 x2) slices_S512x3072_o0_1024_S512x1024 y e (pcol 1 e) hk).trans (pay1_apply x0 x1 x2 y (pcol 1 e))

/-- Band 2 of the product (columns 2048 … 3071), narrowed: at (y, e) it is the product at column 2·1024 + e. -/
theorem pay4_apply (x0 : Vec Ideal S512x1024 .bf16) (x1 : Vec Ideal S3072x1024 .bf16) (x2 : Vec Ideal S3072 .f32)
    (y : Fin 512) (e : Fin 1024) :
    k0_pay4 x0 x1 x2 (ix2 y e) = (∑ d : Fin 1024, x0 (ix2 y d) * x1 (ix2 (pcol 2 e) d)) + x2 (ix1 (pcol 2 e)) := by
  show extractStridedSlice S512x1024 ![0, 2048] (k0_pay1 x0 x1 x2) slices_S512x3072_o0_2048_S512x1024 (ix2 y e) = _
  have hk : (pcol 2 e).val = 2048 + e.val := by show 2 * 1024 + e.val = 2048 + e.val; omega
  exact (slice2_axis1_apply 2048 (k0_pay1 x0 x1 x2) slices_S512x3072_o0_2048_S512x1024 y e (pcol 2 e) hk).trans (pay1_apply x0 x1 x2 y (pcol 2 e))

section
variable (V : (c : Dev nD) → (b : Ref sig .tc) → Buf (Elt Ideal) ((c : Thread nD τ).loc b))

/-- The printed index maps, decided over the 16 grid points: the activations' and each output's block row is the point,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The activations' block at point t is rows 512·t … 512·t + 511 of the array. -/
theorem iblk_x (c : Dev nD) (t : Fin cfg0.N) (y : Fin 512) (k : Fin 1024) (r : Fin 8192) (hr : r.val = t.val * 512 + y.val) :
    (iblk0 V c 0 t : Vec Ideal S512x1024 .bf16) (ix2 y k) = (V c main_v3 : S8192x1024.Idx → EReal) (ix2 r k) := by
  obtain ⟨e0, e1, -, -, -, -, -, -, -, -, -⟩ := idx_facts t
  unfold iblk0
  rw [View.read_apply]
  show (V c main_v3 : S8192x1024.Idx → EReal) _ = _
  refine congrArg (V c main_v3 : S8192x1024.Idx → EReal) (funext fun a => Fin.ext ?_)
  match a with
  | ⟨0, _⟩ => show win0_0.index t (0 : Fin 2) * 512 + 1 * y.val = r.val; rw [e0, hr]; omega
  | ⟨1, _⟩ => show win0_0.index t (1 : Fin 2) * 1024 + 1 * k.val = k.val; rw [e1]; omega

/-- The weights' block is the whole matrix at every point. -/
theorem iblk_w (c : Dev nD) (t : Fin cfg0.N) (e : Fin 3072) (k : Fin 1024) :
    (iblk0 V c 1 t : Vec Ideal S3072x1024 .bf16) (ix2 e k) = (V c main_v0 : S3072x1024.Idx → EReal) (ix2 e k) := by
  obtain ⟨-, -, e2, e3, -, -, -, -, -, -, -⟩ := idx_facts t
  unfold iblk0
  rw [View.read_apply]
  show (V c main_v0 : S3072x1024.Idx → EReal) _ = _
  refine congrArg (V c main_v0 : S3072x1024.Idx → EReal) (funext fun a => Fin.ext ?_)
  match a with
  | ⟨0, _⟩ => show win0_1.index t (0 : Fin 2) * 3072 + 1 * e.val = e.val; rw [e2]; omega
  | ⟨1, _⟩ => show win0_1.index t (1 : Fin 2) * 1024 + 1 * k.val = k.val; rw [e3]; omega

/-- The bias's block is the whole vector at every point. -/
theorem iblk_b (c : Dev nD) (t : Fin cfg0.N) (e : Fin 3072) :
    (iblk0 V c 2 t : Vec Ideal S3072 .f32) (ix1 e) = (V c main_arg2 : S3072.Idx → EReal) (ix1 e) := by
  obtain ⟨-, -, -, -, e4, -, -, -, -, -, -⟩ := idx_facts t
  unfold iblk0
  rw [View.read_apply]
  show (V c main_arg2 : S3072.Idx → EReal) _ = _
  refine congrArg (V c main_arg2 : S3072.Idx → EReal) (funext fun a => Fin.ext ?_)
  match a with
  | ⟨0, _⟩ => show win0_2.index t (0 : Fin 1) * 3072 + 1 * e.val = e.val; rw [e4]; omega

/-- One entry of a point's result, for any band jj and any payload P that is band jj of the product: if the point's
    blocks are rows 512·tt … of X, the whole W and the whole b, then P at block index j is part jj of the flattened
    projection at the array index i that j sits at. -/
theorem point_eq (jj : Fin 3)
    (P : Vec Ideal S512x1024 .bf16 → Vec Ideal S3072x1024 .bf16 → Vec Ideal S3072 .f32 → FVec Ideal S512x1024 .bf16)
    (hP : ∀ (x0 : Vec Ideal S512x1024 .bf16) (x1 : Vec Ideal S3072x1024 .bf16) (x2 : Vec Ideal S3072 .f32) (y : Fin 512) (e : Fin 1024),
      P x0 x1 x2 (ix2 y e) = (∑ d : Fin 1024, x0 (ix2 y d) * x1 (ix2 (pcol jj e) d)) + x2 (ix1 (pcol jj e)))
    (X : S8192x1024.Idx → EReal) (W : S3072x1024.Idx → EReal) (b : S3072.Idx → EReal)
    (x0 : Vec Ideal S512x1024 .bf16) (x1 : Vec Ideal S3072x1024 .bf16) (x2 : Vec Ideal S3072 .f32) (tt : ℕ)
    (h0 : ∀ (y : Fin 512) (k : Fin 1024) (r : Fin 8192), r.val = tt * 512 + y.val → x0 (ix2 y k) = X (ix2 r k))
    (h1 : ∀ (e : Fin 3072) (k : Fin 1024), x1 (ix2 e k) = W (ix2 e k)) (h2 : ∀ e : Fin 3072, x2 (ix1 e) = b (ix1 e))
    (j : S512x1024.Idx) (i : S8192x1024.Idx) (hi0 : (i 0).val = tt * 512 + (j 0).val) (hi1 : (i 1).val = (j 1).val) :
    P x0 x1 x2 j = projFlat jj X W b i := by
  obtain ⟨y, e, rfl⟩ : ∃ (y : Fin 512) (e : Fin 1024), j = ix2 y e := ⟨j 0, j 1, eq_ix2 j⟩
  obtain ⟨r, e', rfl⟩ : ∃ (r : Fin 8192) (e' : Fin 1024), i = ix2 r e' := ⟨i 0, i 1, eq_ix2 i⟩
  obtain rfl : e' = e := Fin.ext hi1
  rw [hP]
  show _ = (∑ d : Fin 1024, X (ix2 r d) * W (ix2 (pcol jj e') d)) + b (ix1 (pcol jj e'))
  refine congrArg₂ (· + ·) (Finset.sum_congr rfl fun k _ => ?_) (h2 _)
  rw [h0 y k r hi0, h1]

/-! ## Output 0 (window 3) -/

/-- What point t writes back to output 0 is block t of part 0 of the flattened projection of the arrays the region is entered with. -/
theorem flushed_eq3 (c : Dev nD) (t : Fin cfg0.N) :
    (dat0 V c).flushed 3 t = ((cfg0.win 3).blk t).view.read (Elt Ideal)
      (projFlat 0 (V c main_v3 : S8192x1024.Idx → EReal) (V c main_v0 : S3072x1024.Idx → EReal) (V c main_arg2 : S3072.Idx → EReal)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S3072x1024) hz2, View.ld_unit_zero (S := S3072) hz1]
  obtain ⟨-, -, -, -, -, e5, e6, -, -, -, -⟩ := idx_facts t
  funext j
  show k0_pay2 (iblk0 V c 0 t) (iblk0 V c 1 t) (iblk0 V c 2 t) j
    = projFlat 0 (V c main_v3 : S8192x1024.Idx → EReal) (V c main_v0 : S3072x1024.Idx → EReal) (V c main_arg2 : S3072.Idx → EReal)
        (((cfg0.win 3).blk t).view.emb j)
  refine point_eq 0 k0_pay2 pay2_apply _ _ _ _ _ _ t.val (fun y k r hr => iblk_x V c t y k r hr) (iblk_w V c t) (iblk_b V c t) j _ ?_ ?_
  · show win0_3.index t (0 : Fin 2) * 512 + 1 * (j 0).val = t.val * 512 + (j 0).val
    rw [e5]; omega
  · show win0_3.index t (1 : Fin 2) * 1024 + 1 * (j 1).val = (j 1).val
    rw [e6]; omega

/-- An index of output 0 is in point t's block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_0).slice (win0_3.rect t)).set ↔ _
  rw [View.set_slice_whole, Rect.mem_set_unit]
  exact Iff.rfl

/-- Every index of output 0 is in the block of the point its row falls in: row r is in block r / 512. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, e5, e6, -, -, -, -⟩ := idx_facts t
  have htv : t.val = (i 0).val / 512 := rfl
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; rw [e5, htv]; omega
  | ⟨1, _⟩ => show win0_3.index t (1 : Fin 2) * 1024 ≤ (i 1).val ∧ (i 1).val < win0_3.index t (1 : Fin 2) * 1024 + 1024; rw [e6]; omega

/-- Output 0 after the 16 points: part 0 of the flattened projection of the arrays the region was entered with. -/
theorem final3 (c : Dev nD) : (dat0 V c).arrAt 3 cfg0.N
    = projFlat 0 (V c main_v3 : S8192x1024.Idx → EReal) (V c main_v0 : S3072x1024.Idx → EReal) (V c main_arg2 : S3072.Idx → EReal) :=
  (dat0 V c).arrAt_eq_of_cover 3 _ (fun t _ => flushed_eq3 V c t) cover3

/-! ## Output 1 (window 4) -/

/-- What point t writes back to output 1 is block t of part 1 of the flattened projection of the arrays the region is entered with. -/
theorem flushed_eq4 (c : Dev nD) (t : Fin cfg0.N) :
    (dat0 V c).flushed 4 t = ((cfg0.win 4).blk t).view.read (Elt Ideal)
      (projFlat 1 (V c main_v3 : S8192x1024.Idx → EReal) (V c main_v0 : S3072x1024.Idx → EReal) (V c main_arg2 : S3072.Idx → EReal)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S3072x1024) hz2, View.ld_unit_zero (S := S3072) hz1]
  obtain ⟨-, -, -, -, -, -, -, e5, e6, -, -⟩ := idx_facts t
  funext j
  show k0_pay3 (iblk0 V c 0 t) (iblk0 V c 1 t) (iblk0 V c 2 t) j
    = projFlat 1 (V c main_v3 : S8192x1024.Idx → EReal) (V c main_v0 : S3072x1024.Idx → EReal) (V c main_arg2 : S3072.Idx → EReal)
        (((cfg0.win 4).blk t).view.emb j)
  refine point_eq 1 k0_pay3 pay3_apply _ _ _ _ _ _ t.val (fun y k r hr => iblk_x V c t y k r hr) (iblk_w V c t) (iblk_b V c t) j _ ?_ ?_
  · show win0_4.index t (0 : Fin 2) * 512 + 1 * (j 0).val = t.val * 512 + (j 0).val
    rw [e5]; omega
  · show win0_4.index t (1 : Fin 2) * 1024 + 1 * (j 1).val = (j 1).val
    rw [e6]; omega

/-- An index of output 1 is in point t's block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

/-- Every index of output 1 is in the block of the point its row falls in: row r is in block r / 512. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, -, -, e5, e6, -, -⟩ := idx_facts t
  have htv : t.val = (i 0).val / 512 := rfl
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; rw [e5, htv]; omega
  | ⟨1, _⟩ => show win0_4.index t (1 : Fin 2) * 1024 ≤ (i 1).val ∧ (i 1).val < win0_4.index t (1 : Fin 2) * 1024 + 1024; rw [e6]; omega

/-- Output 1 after the 16 points: part 1 of the flattened projection of the arrays the region was entered with. -/
theorem final4 (c : Dev nD) : (dat0 V c).arrAt 4 cfg0.N
    = projFlat 1 (V c main_v3 : S8192x1024.Idx → EReal) (V c main_v0 : S3072x1024.Idx → EReal) (V c main_arg2 : S3072.Idx → EReal) :=
  (dat0 V c).arrAt_eq_of_cover 4 _ (fun t _ => flushed_eq4 V c t) cover4

/-! ## Output 2 (window 5) -/

/-- What point t writes back to output 2 is block t of part 2 of the flattened projection of the arrays the region is entered with. -/
theorem flushed_eq5 (c : Dev nD) (t : Fin cfg0.N) :
    (dat0 V c).flushed 5 t = ((cfg0.win 5).blk t).view.read (Elt Ideal)
      (projFlat 2 (V c main_v3 : S8192x1024.Idx → EReal) (V c main_v0 : S3072x1024.Idx → EReal) (V c main_arg2 : S3072.Idx → EReal)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S3072x1024) hz2, View.ld_unit_zero (S := S3072) hz1]
  obtain ⟨-, -, -, -, -, -, -, -, -, e5, e6⟩ := idx_facts t
  funext j
  show k0_pay4 (iblk0 V c 0 t) (iblk0 V c 1 t) (iblk0 V c 2 t) j
    = projFlat 2 (V c main_v3 : S8192x1024.Idx → EReal) (V c main_v0 : S3072x1024.Idx → EReal) (V c main_arg2 : S3072.Idx → EReal)
        (((cfg0.win 5).blk t).view.emb j)
  refine point_eq 2 k0_pay4 pay4_apply _ _ _ _ _ _ t.val (fun y k r hr => iblk_x V c t y k r hr) (iblk_w V c t) (iblk_b V c t) j _ ?_ ?_
  · show win0_5.index t (0 : Fin 2) * 512 + 1 * (j 0).val = t.val * 512 + (j 0).val
    rw [e5]; omega
  · show win0_5.index t (1 : Fin 2) * 1024 + 1 * (j 1).val = (j 1).val
    rw [e6]; omega

/-- An index of output 2 is in point t's block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

/-- Every index of output 2 is in the block of the point its row falls in: row r is in block r / 512. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, -, -, -, -, e5, e6⟩ := idx_facts t
  have htv : t.val = (i 0).val / 512 := rfl
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e5, htv]; omega
  | ⟨1, _⟩ => show win0_5.index t (1 : Fin 2) * 1024 ≤ (i 1).val ∧ (i 1).val < win0_5.index t (1 : Fin 2) * 1024 + 1024; rw [e6]; omega

/-- Output 2 after the 16 points: part 2 of the flattened projection of the arrays the region was entered with. -/
theorem final5 (c : Dev nD) : (dat0 V c).arrAt 5 cfg0.N
    = projFlat 2 (V c main_v3 : S8192x1024.Idx → EReal) (V c main_v0 : S3072x1024.Idx → EReal) (V c main_arg2 : S3072.Idx → EReal) :=
  (dat0 V c).arrAt_eq_of_cover 5 _ (fun t _ => flushed_eq5 V c t) cover5

end

end Cert.KernelIdeal.Region0

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.Region1.lean ====
/-
  The second kernel region: the attention itself. Its 128 grid points are (sequence, head pair, query tile): point t is
  sequence t / 32, head pair t / 4 % 8, query tile t % 4. A point takes 512 rows of the queries and the 2048 rows of its
  sequence's keys and values, all at the 128 columns of its head pair, and writes the 512 × 128 block of attended values:
  for each of the pair's two heads (columns 0 … 63 and 64 … 127 of the blocks) the body scales the queries by ⅛, takes
  their products with the keys, subtracts each row's maximum, exponentiates, divides by the row's sum, and takes the
  products of these weights with the values; the two results are laid side by side. So the region's output array,
  whatever arrays it is entered with, ends holding  attnFlat Q K V  (FlatSpec): entry (r, c) is
      Σ_k softmax_k(score(r, c, ·)) · V(row k of r's sequence, c),   score(r, c, k) = Σ_d (Q(r, [c,d]) · ⅛) · K(row k, [c,d]).
-/
import proofs.«110166_j78443282694529_2_alg».proof.Proof.Gen.KernelIdeal.Frame
import proofs.«110166_j78443282694529_2_alg».proof.Proof.FlatSpec
import proofs.«110166_j78443282694529_2_alg».proof.Proof.LibTransposedMatmul
import proofs.«110166_j78443282694529_2_alg».proof.Proof.LibPlainMatmul
import proofs.«110166_j78443282694529_2_alg».proof.Proof.LibMergedAxes
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Mha

theorem hz2 : (![0, 0] : Fin 2 → Nat) = fun _ => 0 := funext fun a => by fin_cases a <;> rfl

/-- The printed contraction record of the scores is the product with the right operand contracted on its last axis. -/
theorem dimsS_eq : dot_S512x64_S2048x64_S512x2048_1_1_0_0_n_n = DotDims.transposedRhs 512 64 2048 := rfl
/-- The printed contraction record of the weighted sum of the values is the plain matrix product. -/
theorem dimsV_eq : dot_S512x2048_S2048x64_S512x64_1_0_0_1_n_n = DotDims.plain 512 2048 64 := rfl

/-! ## One head on abstract operands -/

/-- The score of query row y against key row kk: the query lanes scaled by the 16-bit word of ⅛ first. -/
def sc (q : S512x64.Idx → EReal) (k : S2048x64.Idx → EReal) (y : Fin 512) (kk : Fin 2048) : EReal :=
  ∑ d : Fin 64, (q (ix2 y d) * scale) * k (ix2 kk d)

/-- The matrix of scores as the body computes it: the scaled queries times the transposed keys. -/
def scoreMat (q : FVec Ideal S512x64 .bf16) (k : FVec Ideal S2048x64 .bf16) : FVec Ideal S512x2048 .f32 :=
  matmul dot_S512x64_S2048x64_S512x2048_1_1_0_0_n_n none
    (mulf q (broadcast S512x64 (Scalar.ofBits (F := Ideal) .bf16 0x3E00#16))) k (constant S512x2048 .f32 0x00000000#32)

theorem scoreMat_apply (q : FVec Ideal S512x64 .bf16) (k : FVec Ideal S2048x64 .bf16) (y : Fin 512) (kk : Fin 2048) :
    scoreMat q k (ix2 y kk) = sc q k y kk := by
  unfold scoreMat
  simp only [matmul]
  rw [dimsS_eq]
  exact TransposedMatmul.apply_zero _ k y kk

/-- The row maximum as the body takes it: a lane reduction from the word of −∞. -/
theorem rowmax_apply (h : S512x2048.Reduces [1] S512) (s : FVec Ideal S512x2048 .f32) (y : Fin 512) :
    (multiReduction .maximumf [1] S512 s 0xFF800000#32 h (.inl rfl) rfl : FVec Ideal S512 .f32) (ix1 y)
      = rowMax (fun kk => s (ix2 y kk)) := by
  refine (Ideal.multiReduction_maximumf_single s 0xFF800000#32 h (.inl rfl) rfl (ix1 y)).trans ?_
  unfold rowMax negInf
  rw [Ideal.ofBits_def]
  refine congrArg (fun f : Fin 2048 → EReal => Finset.fold max (Ideal.ofBits .f32 0xFF800000#32) f Finset.univ) (funext fun k => ?_)
  show s (h.lift (ix1 y) k) = s (ix2 y k)
  refine congrArg s ?_
  funext c; apply Fin.ext; fin_cases c <;> rfl

/-- The row sum as the body takes it: a lane reduction from zero. -/
theorem rowsum_apply (h : S512x2048.Reduces [1] S512) (s : FVec Ideal S512x2048 .f32) (y : Fin 512) :
    (multiReduction .add [1] S512 s 0x00000000#32 h (.inl rfl) rfl : FVec Ideal S512 .f32) (ix1 y)
      = ∑ kk : Fin 2048, s (ix2 y kk) := by
  refine (Ideal.multiReduction_add_single s 0x00000000#32 h (.inl rfl) rfl (ix1 y)).trans ?_
  refine Finset.sum_congr rfl fun k _ => ?_
  show s (h.lift (ix1 y) k) = s (ix2 y k)
  refine congrArg s ?_
  funext c; apply Fin.ext; fin_cases c <;> rfl

/-- The exponentials of the scores shifted by their row's maximum, as the body computes them. -/
def expMat (s : FVec Ideal S512x2048 .f32) : FVec Ideal S512x2048 .f32 :=
  exp (subf s (broadcastTo S512x2048 (shapeCast S512x1
    (multiReduction .maximumf [1] S512 s 0xFF800000#32 Facts₀.reduces_S512x2048_S512 (.inl rfl) rfl : FVec Ideal S512 .f32)
    Facts₀.shapeCasts_S512_S512x1) Facts₀.broadcasts_S512x1_S512x2048))

theorem expMat_apply (s : FVec Ideal S512x2048 .f32) (y : Fin 512) (kk : Fin 2048) :
    expMat s (ix2 y kk) = Ideal.exp (s (ix2 y kk) - rowMax (fun k' => s (ix2 y k'))) := by
  unfold expMat
  show FloatOps.exp (subf s _ (ix2 y kk)) = _
  rw [Ideal.exp_def, subf_apply, Cert.LibMergedAxes.broadcastTo_a1_ab_apply, Cert.LibMergedAxes.shapeCast_a_a1_apply,
    rowmax_apply]

/-- The attention weights: each shifted exponential over its row's sum, as the body computes them. -/
def probMat (s : FVec Ideal S512x2048 .f32) : FVec Ideal S512x2048 .bf16 :=
  truncf .bf16 (divf (expMat s) (broadcastTo S512x2048 (shapeCast S512x1
    (multiReduction .add [1] S512 (expMat s) 0x00000000#32 Facts₀.reduces_S512x2048_S512 (.inl rfl) rfl : FVec Ideal S512 .f32)
    Facts₀.shapeCasts_S512_S512x1) Facts₀.broadcasts_S512x1_S512x2048)) Facts₀.bitsLt_bf16_f32

theorem probMat_apply (s : FVec Ideal S512x2048 .f32) (y : Fin 512) (kk : Fin 2048) :
    probMat s (ix2 y kk) = Ideal.div (expMat s (ix2 y kk)) (∑ k' : Fin 2048, expMat s (ix2 y k')) := by
  unfold probMat
  rw [truncf_apply, divf_apply, Cert.LibMergedAxes.broadcastTo_a1_ab_apply, Cert.LibMergedAxes.shapeCast_a_a1_apply,
    rowsum_apply]

/-- One head of the body on its operands: the weights times the values. -/
def headBody (q : FVec Ideal S512x64 .bf16) (k v : FVec Ideal S2048x64 .bf16) : FVec Ideal S512x64 .f32 :=
  matmul dot_S512x2048_S2048x64_S512x64_1_0_0_1_n_n none (probMat (scoreMat q k)) v (constant S512x64 .f32 0x00000000#32)

/-- One head read at an entry: the softmax of the row of scores against the column of values. -/
theorem headBody_apply (q : FVec Ideal S512x64 .bf16) (k v : FVec Ideal S2048x64 .bf16) (y : Fin 512) (d : Fin 64) :
    headBody q k v (ix2 y d)
      = ∑ kk : Fin 2048, Ideal.div (Ideal.exp (sc q k y kk - rowMax (sc q k y)))
          (∑ k' : Fin 2048, Ideal.exp (sc q k y k' - rowMax (sc q k y))) * v (ix2 kk d) := by
  have hrow : (fun k' : Fin 2048 => scoreMat q k (ix2 y k')) = sc q k y := funext fun k' => scoreMat_apply q k y k'
  have hexp : ∀ kk : Fin 2048, expMat (scoreMat q k) (ix2 y kk) = Ideal.exp (sc q k y kk - rowMax (sc q k y)) := fun kk => by
    rw [expMat_apply, hrow, scoreMat_apply]
  unfold headBody
  simp only [matmul]
  rw [dimsV_eq]
  refine (PlainMatmul.apply_zero _ v y d).trans ?_
  refine Finset.sum_congr rfl fun kk _ => ?_
  refine congrArg (· * v (ix2 kk d)) ?_
  rw [probMat_apply, hexp kk]
  refine congrArg (Ideal.div _) ?_
  exact Finset.sum_congr rfl fun k' _ => hexp k'

/-- The first head of a pair: the body on the columns 0 … 63 of the three blocks. -/
theorem pay5_eq (v0 : Vec Ideal S512x128 .bf16) (v2 v4 : Vec Ideal S2048x128 .bf16) :
    k1_pay5 v0 v2 v4 = truncf .bf16 (headBody
      (extractStridedSlice S512x64 ![0, 0] (k1_pay2 v0) Facts₀.slices_S512x128_o0_0_S512x64)
      (extractStridedSlice S2048x64 ![0, 0] (k1_pay3 v2) Facts₀.slices_S2048x128_o0_0_S2048x64)
      (extractStridedSlice S2048x64 ![0, 0] (k1_pay4 v4) Facts₀.slices_S2048x128_o0_0_S2048x64)) Facts₀.bitsLt_bf16_f32 := rfl

/-- The second head of a pair: the body on the columns 64 … 127 of the three blocks. -/
theorem pay6_eq (v0 : Vec Ideal S512x128 .bf16) (v2 v4 : Vec Ideal S2048x128 .bf16) :
    k1_pay6 v0 v2 v4 = headBody
      (extractStridedSlice S512x64 ![0, 64] (k1_pay2 v0) Facts₀.slices_S512x128_o0_64_S512x64)
      (extractStridedSlice S2048x64 ![0, 64] (k1_pay3 v2) Facts₀.slices_S2048x128_o0_64_S2048x64)
      (extractStridedSlice S2048x64 ![0, 64] (k1_pay4 v4) Facts₀.slices_S2048x128_o0_64_S2048x64) := rfl

/-! ## The two heads of a pair, side by side -/

/-- The columns below 64 of the stored block are the first head's. -/
theorem pay1_left (a : FVec Ideal S512x64 .bf16) (b : FVec Ideal S512x64 .f32) (y : Fin 512) (z : Fin 128) (d : Fin 64)
    (hz : z.val = d.val) : k1_pay1 a b (ix2 y z) = a (ix2 y d) := by
  unfold k1_pay1
  exact concatenate_pair_apply_left (t := S512x128) (s₁ := S512x64) (s₂ := S512x64) (1 : Fin 2) a _ _ (ix2 y z) rfl (ix2 y d) (fun bb => by
    match bb with
    | ⟨0, _⟩ => rfl
    | ⟨1, _⟩ => exact hz.symm)

/-- The columns from 64 on of the stored block are the second head's, 64 less. -/
theorem pay1_right (a : FVec Ideal S512x64 .bf16) (b : FVec Ideal S512x64 .f32) (y : Fin 512) (z : Fin 128) (d : Fin 64)
    (hz : d.val + 64 = z.val) : k1_pay1 a b (ix2 y z) = b (ix2 y d) := by
  unfold k1_pay1
  exact concatenate_pair_apply_right (t := S512x128) (s₁ := S512x64) (s₂ := S512x64) (1 : Fin 2) a _ _ (ix2 y z) rfl rfl (ix2 y d) (fun bb hb => by
    match bb with
    | ⟨0, _⟩ => rfl
    | ⟨1, _⟩ => exact absurd rfl hb) hz

/-- Lane d of the head that column z of a 128-column block belongs to. -/
def hcol (z : Fin 128) (d : Fin 64) : Fin 128 := ⟨z.val / 64 * 64 + d.val, by have := z.isLt; have := d.isLt; omega⟩

/-- The score of block row y against key row kk in the head of block column z. -/
def scBlk (x0 : S512x128.Idx → EReal) (x1 : S2048x128.Idx → EReal) (y : Fin 512) (z : Fin 128) (kk : Fin 2048) : EReal :=
  ∑ d : Fin 64, (x0 (ix2 y (hcol z d)) * scale) * x1 (ix2 kk (hcol z d))

/-- The attended values of a point, from its three blocks, at block entry (y, z). -/
def attnBlk (x0 : S512x128.Idx → EReal) (x1 x2 : S2048x128.Idx → EReal) (y : Fin 512) (z : Fin 128) : EReal :=
  ∑ kk : Fin 2048, Ideal.div (Ideal.exp (scBlk x0 x1 y z kk - rowMax (scBlk x0 x1 y z)))
    (∑ k' : Fin 2048, Ideal.exp (scBlk x0 x1 y z k' - rowMax (scBlk x0 x1 y z))) * x2 (ix2 kk z)

/-- One head on the blocks' columns o … o + 63, at lane d, is the attended value at block column z = o + d. -/
theorem head_slice (o : ℕ) (hq : S512x128.Slices ![0, o] S512x64) (hk : S2048x128.Slices ![0, o] S2048x64)
    (x0 : Vec Ideal S512x128 .bf16) (x1 x2 : Vec Ideal S2048x128 .bf16) (y : Fin 512) (z : Fin 128) (d : Fin 64)
    (hzd : z.val = o + d.val) (ho : z.val / 64 * 64 = o) :
    headBody (extractStridedSlice S512x64 ![0, o] (k1_pay2 x0) hq) (extractStridedSlice S2048x64 ![0, o] (k1_pay3 x1) hk)
      (extractStridedSlice S2048x64 ![0, o] (k1_pay4 x2) hk) (ix2 y d) = attnBlk x0 x1 x2 y z := by
  have e2 : k1_pay2 x0 = x0 := by unfold k1_pay2; exact shapeCast_self _ _
  have e3 : k1_pay3 x1 = x1 := by unfold k1_pay3; exact shapeCast_self _ _
  have e4 : k1_pay4 x2 = x2 := by unfold k1_pay4; exact shapeCast_self _ _
  rw [e2, e3, e4, headBody_apply]
  have hs : sc (extractStridedSlice S512x64 ![0, o] x0 hq) (extractStridedSlice S2048x64 ![0, o] x1 hk) y
      = scBlk x0 x1 y z := funext fun kk => by
    unfold sc scBlk
    refine Finset.sum_congr rfl fun d' _ => ?_
    have hc : (hcol z d').val = o + d'.val := by show z.val / 64 * 64 + d'.val = o + d'.val; omega
    rw [slice2_axis1_apply o x0 hq y d' (hcol z d') hc, slice2_axis1_apply o x1 hk kk d' (hcol z d') hc]
  rw [hs]
  unfold attnBlk
  refine Finset.sum_congr rfl fun kk _ => ?_
  rw [slice2_axis1_apply o x2 hk kk d z hzd]

/-- The body's stored block at entry (y, z): the attended values from the point's three blocks. -/
theorem pay_apply (x0 : Vec Ideal S512x128 .bf16) (x1 x2 : Vec Ideal S2048x128 .bf16) (y : Fin 512) (z : Fin 128) :
    k1_pay1 (k1_pay5 x0 x1 x2) (k1_pay6 x0 x1 x2) (ix2 y z) = attnBlk x0 x1 x2 y z := by
  have hzlt := z.isLt
  by_cases hz : z.val < 64
  · rw [pay1_left _ _ y z ⟨z.val, hz⟩ rfl, pay5_eq, truncf_apply]
    exact head_slice 0 _ _ x0 x1 x2 y z ⟨z.val, hz⟩ (by show z.val = 0 + z.val; omega) (by omega)
  · rw [pay1_right _ _ y z ⟨z.val - 64, by omega⟩ (by show z.val - 64 + 64 = z.val; omega), pay6_eq]
    exact head_slice 64 _ _ x0 x1 x2 y z ⟨z.val - 64, by omega⟩ (by show z.val = 64 + (z.val - 64); omega) (by omega)

/-! ## From the blocks to the array -/

/-- A point's stored entry is the flattened attention at the array entry it sits at: if the point's blocks are rows
    (bb·4 + sq)·512 … of Q and rows bb·2048 … of K and V, all at columns hp·128 …, then block entry j is array entry i
    with row (bb·4 + sq)·512 + j₀ and column hp·128 + j₁. -/
theorem point_eq (Q K Vv : S8192x1024.Idx → EReal)
    (x0 : Vec Ideal S512x128 .bf16) (x1 x2 : Vec Ideal S2048x128 .bf16) (bb sq hp : ℕ) (hsq : sq < 4)
    (h0 : ∀ (y : Fin 512) (z : Fin 128) (r : Fin 8192) (c : Fin 1024), r.val = (bb * 4 + sq) * 512 + y.val →
      c.val = hp * 128 + z.val → x0 (ix2 y z) = Q (ix2 r c))
    (h1 : ∀ (kk : Fin 2048) (z : Fin 128) (r : Fin 8192) (c : Fin 1024), r.val = bb * 2048 + kk.val →
      c.val = hp * 128 + z.val → x1 (ix2 kk z) = K (ix2 r c))
    (h2 : ∀ (kk : Fin 2048) (z : Fin 128) (r : Fin 8192) (c : Fin 1024), r.val = bb * 2048 + kk.val →
      c.val = hp * 128 + z.val → x2 (ix2 kk z) = Vv (ix2 r c))
    (j : S512x128.Idx) (i : S8192x1024.Idx) (hi0 : (i 0).val = (bb * 4 + sq) * 512 + (j 0).val)
    (hi1 : (i 1).val = hp * 128 + (j 1).val) :
    k1_pay1 (k1_pay5 x0 x1 x2) (k1_pay6 x0 x1 x2) j = attnFlat Q K Vv i := by
  obtain ⟨y, z, rfl⟩ : ∃ (y : Fin 512) (z : Fin 128), j = ix2 y z := ⟨j 0, j 1, eq_ix2 j⟩
  obtain ⟨r, c, rfl⟩ : ∃ (r : Fin 8192) (c : Fin 1024), i = ix2 r c := ⟨i 0, i 1, eq_ix2 i⟩
  have hr : r.val = (bb * 4 + sq) * 512 + y.val := hi0
  have hc : c.val = hp * 128 + z.val := hi1
  have hy := y.isLt
  have hz := z.isLt
  have hkr : ∀ kk : Fin 2048, (keyRow r kk).val = bb * 2048 + kk.val := fun kk => by
    show r.val / 2048 * 2048 + kk.val = bb * 2048 + kk.val
    omega
  have hhc : ∀ d : Fin 64, (headCol c d).val = hp * 128 + (hcol z d).val := fun d => by
    show c.val / 64 * 64 + d.val = hp * 128 + (z.val / 64 * 64 + d.val)
    omega
  have hs : scBlk x0 x1 y z = scoreFlat Q K r c := funext fun kk => by
    unfold scBlk scoreFlat
    refine Finset.sum_congr rfl fun d _ => ?_
    rw [h0 y (hcol z d) r (headCol c d) hr (hhc d), h1 kk (hcol z d) (keyRow r kk) (headCol c d) (hkr kk) (hhc d)]
  rw [pay_apply]
  show attnBlk x0 x1 x2 y z = ∑ kk : Fin 2048, probFlat Q K r c kk * Vv (ix2 (keyRow r kk) c)
  unfold attnBlk
  rw [hs]
  refine Finset.sum_congr rfl fun kk _ => ?_
  rw [h2 kk z (keyRow r kk) c (hkr kk) hc]
  rfl

section
variable (V : (c : Dev nD) → (b : Ref sig .tc) → Buf (Elt Ideal) ((c : Thread nD τ).loc b))

/-- The printed index maps, decided over the 128 grid points. Point t is sequence t / 32, head pair t / 4 % 8, query
    tile t % 4: the queries' and the output's block row is 4 · (t / 32) + t % 4, the keys' and values' is t / 32, and
    every block column is t / 4 % 8. -/
theorem idx_facts : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = t.val / 4 % 8
    ∧ win1_2.index t (0 : Fin 2) = t.val / 32 ∧ win1_2.index t (1 : Fin 2) = t.val / 4 % 8
    ∧ win1_3.index t (0 : Fin 2) = t.val / 32 * 4 + t.val % 4 ∧ win1_3.index t (1 : Fin 2) = t.val / 4 % 8 :=
  (by decide +kernel : ∀ t : Fin grid1.N, _)

/-- The queries' block at point t: rows (4 · (t / 32) + t % 4) · 512 …, columns (t / 4 % 8) · 128 … of the array. -/
theorem iblk_q (c : Dev nD) (t : Fin cfg1.N) (y : Fin 512) (z : Fin 128) (r : Fin 8192) (cc : Fin 1024)
    (hr : r.val = (t.val / 32 * 4 + t.val % 4) * 512 + y.val) (hc : cc.val = t.val / 4 % 8 * 128 + z.val) :
    (iblk1 V c 0 t : Vec Ideal S512x128 .bf16) (ix2 y z) = (V c main_v4_0 : S8192x1024.Idx → EReal) (ix2 r cc) := by
  obtain ⟨e0, e1, -, -, -, -, -, -⟩ := idx_facts t
  unfold iblk1
  rw [View.read_apply]
  show (V c main_v4_0 : S8192x1024.Idx → EReal) _ = _
  refine congrArg (V c main_v4_0 : S8192x1024.Idx → EReal) (funext fun a => Fin.ext ?_)
  match a with
  | ⟨0, _⟩ => show win1_0.index t (0 : Fin 2) * 512 + 1 * y.val = r.val; rw [e0, hr]; omega
  | ⟨1, _⟩ => show win1_0.index t (1 : Fin 2) * 128 + 1 * z.val = cc.val; rw [e1, hc]; omega

/-- The keys' block at point t: rows (t / 32) · 2048 …, columns (t / 4 % 8) · 128 … of the array. -/
theorem iblk_k (c : Dev nD) (t : Fin cfg1.N) (kk : Fin 2048) (z : Fin 128) (r : Fin 8192) (cc : Fin 1024)
    (hr : r.val = t.val / 32 * 2048 + kk.val) (hc : cc.val = t.val / 4 % 8 * 128 + z.val) :
    (iblk1 V c 1 t : Vec Ideal S2048x128 .bf16) (ix2 kk z) = (V c main_v4_1 : S8192x1024.Idx → EReal) (ix2 r cc) := by
  obtain ⟨-, -, e2, e3, -, -, -, -⟩ := idx_facts t
  unfold iblk1
  rw [View.read_apply]
  show (V c main_v4_1 : S8192x1024.Idx → EReal) _ = _
  refine congrArg (V c main_v4_1 : S8192x1024.Idx → EReal) (funext fun a => Fin.ext ?_)
  match a with
  | ⟨0, _⟩ => show win1_1.index t (0 : Fin 2) * 2048 + 1 * kk.val = r.val; rw [e2, hr]; omega
  | ⟨1, _⟩ => show win1_1.index t (1 : Fin 2) * 128 + 1 * z.val = cc.val; rw [e3, hc]; omega

/-- The values' block at point t: the same rows and columns of the values' array. -/
theorem iblk_v (c : Dev nD) (t : Fin cfg1.N) (kk : Fin 2048) (z : Fin 128) (r : Fin 8192) (cc : Fin 1024)
    (hr : r.val = t.val / 32 * 2048 + kk.val) (hc : cc.val = t.val / 4 % 8 * 128 + z.val) :
    (iblk1 V c 2 t : Vec Ideal S2048x128 .bf16) (ix2 kk z) = (V c main_v4_2 : S8192x1024.Idx → EReal) (ix2 r cc) := by
  obtain ⟨-, -, -, -, e4, e5, -, -⟩ := idx_facts t
  unfold iblk1
  rw [View.read_apply]
  show (V c main_v4_2 : S8192x1024.Idx → EReal) _ = _
  refine congrArg (V c main_v4_2 : S8192x1024.Idx → EReal) (funext fun a => Fin.ext ?_)
  match a with
  | ⟨0, _⟩ => show win1_2.index t (0 : Fin 2) * 2048 + 1 * kk.val = r.val; rw [e4, hr]; omega
  | ⟨1, _⟩ => show win1_2.index t (1 : Fin 2) * 128 + 1 * z.val = cc.val; rw [e5, hc]; omega

/-- What point t writes back is its block of the flattened attention of the arrays the region is entered with. -/
theorem flushed_eq (c : Dev nD) (t : Fin cfg1.N) :
    (dat1 V c).flushed 3 t = ((cfg1.win 3).blk t).view.read (Elt Ideal)
      (attnFlat (V c main_v4_0 : S8192x1024.Idx → EReal) (V c main_v4_1 : S8192x1024.Idx → EReal)
        (V c main_v4_2 : S8192x1024.Idx → EReal)) := by
  show (cfg1.win 3).cut (grid1.coords t) ((dat1 V c).after 3 t) = _
  rw [after1_3]
  unfold out1_3
  rw [View.canon_unit_zero hz2]
  simp only [View.ld_unit_zero (S := S512x128) hz2, View.ld_unit_zero (S := S2048x128) hz2]
  obtain ⟨-, -, -, -, -, -, e6, e7⟩ := idx_facts t
  funext j
  show k1_pay1 (k1_pay5 (iblk1 V c 0 t) (iblk1 V c 1 t) (iblk1 V c 2 t)) (k1_pay6 (iblk1 V c 0 t) (iblk1 V c 1 t) (iblk1 V c 2 t)) j
    = attnFlat (V c main_v4_0 : S8192x1024.Idx → EReal) (V c main_v4_1 : S8192x1024.Idx → EReal)
        (V c main_v4_2 : S8192x1024.Idx → EReal) (((cfg1.win 3).blk t).view.emb j)
  refine point_eq _ _ _ _ _ _ (t.val / 32) (t.val % 4) (t.val / 4 % 8) (Nat.mod_lt _ (by decide))
    (fun y z r cc hr hc => iblk_q V c t y z r cc hr hc) (fun kk z r cc hr hc => iblk_k V c t kk z r cc hr hc)
    (fun kk z r cc hr hc => iblk_v V c t kk z r cc hr hc) j _ ?_ ?_
  · show win1_3.index t (0 : Fin 2) * 512 + 1 * (j 0).val = (t.val / 32 * 4 + t.val % 4) * 512 + (j 0).val
    rw [e6]; omega
  · show win1_3.index t (1 : Fin 2) * 128 + 1 * (j 1).val = t.val / 4 % 8 * 128 + (j 1).val
    rw [e7]; omega

/-- An index of the output array is in point t's block iff each coordinate is in the block's range on its axis. -/
theorem mem_blk (t : Fin cfg1.N) (i : S8192x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v5).slice (win1_3.rect t)).set ↔ _
  rw [View.set_slice_whole, Rect.mem_set_unit]
  exact Iff.rfl

/-- Every index of the output array is in the block of one point: row r, column c in that of sequence r / 2048,
    head pair c / 128, query tile r / 512 % 4. -/
theorem cover (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 128 := N_1
  let t : Fin cfg1.N := ⟨(i 0).val / 2048 * 32 + (i 1).val / 128 * 4 + (i 0).val / 512 % 4, by rw [hN]; omega⟩
  obtain ⟨-, -, -, -, -, -, e6, e7⟩ := idx_facts t
  have htv : t.val = (i 0).val / 2048 * 32 + (i 1).val / 128 * 4 + (i 0).val / 512 % 4 := rfl
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; rw [e6, htv]; omega
  | ⟨1, _⟩ => show win1_3.index t (1 : Fin 2) * 128 ≤ (i 1).val ∧ (i 1).val < win1_3.index t (1 : Fin 2) * 128 + 128; rw [e7, htv]; omega

/-- The region's output array after its 128 points: the flattened attention of the arrays it was entered with. -/
theorem final (c : Dev nD) : (dat1 V c).arrAt 3 cfg1.N
    = attnFlat (V c main_v4_0 : S8192x1024.Idx → EReal) (V c main_v4_1 : S8192x1024.Idx → EReal)
        (V c main_v4_2 : S8192x1024.Idx → EReal) :=
  (dat1 V c).arrAt_eq_of_cover 3 _ (fun t _ => flushed_eq V c t) cover

end

end Cert.KernelIdeal.Region1

end
-- ==== Proof.Region2.lean ====
/-
  The third kernel region: the output projection. Each of its 16 grid points takes 512 rows of the merged heads, the
  whole projection matrix and bias, and writes 512 rows of  A · Woᵀ + bo.  So the region's output array, whatever
  arrays it is entered with, ends holding  outFlat A Wo bo  (FlatSpec): entry (r, e) is Σ_c A(r, c) · Wo(e, c) + bo(e).
-/
import proofs.«110166_j78443282694529_2_alg».proof.Proof.Gen.KernelIdeal.Frame
import proofs.«110166_j78443282694529_2_alg».proof.Proof.FlatSpec
import proofs.«110166_j78443282694529_2_alg».proof.Proof.LibTransposedMatmul
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Mha

theorem hz2 : (![0, 0] : Fin 2 → Nat) = fun _ => 0 := funext fun a => by fin_cases a <;> rfl
theorem hz1 : (![0] : Fin 1 → Nat) = fun _ => 0 := funext fun a => by fin_cases a <;> rfl

/-- The printed contraction record is the product with the right operand contracted on its last axis. -/
theorem dims_eq : dot_S512x1024_S1024x1024_S512x1024_1_1_0_0_n_n = DotDims.transposedRhs 512 1024 1024 := rfl

/-- The body's payload at row y, column e of its block: Σ_c a(y, c) · w(e, c) + b(e). -/
theorem pay_apply (x0 : Vec Ideal S512x1024 .bf16) (x1 : Vec Ideal S1024x1024 .bf16) (x2 : Vec Ideal S1024 .f32)
    (y : Fin 512) (e : Fin 1024) :
    k2_pay1 x0 x1 x2 (ix2 y e) = (∑ c : Fin 1024, x0 (ix2 y c) * x1 (ix2 e c)) + x2 (ix1 e) := by
  unfold k2_pay1
  simp only [shapeCast_self]
  rw [addf_apply, broadcastTo_1b_ab_apply, shapeCast_a_1a_apply]
  refine congrArg (· + x2 (ix1 e)) ?_
  simp only [matmul]
  rw [dims_eq]
  exact TransposedMatmul.apply_zero x0 x1 y e

section
variable (V : (c : Dev nD) → (b : Ref sig .tc) → Buf (Elt Ideal) ((c : Thread nD τ).loc b))

/-- The printed index maps, decided over the 16 grid points: the activations' and the output's block row is the point,
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- The activations' block at point t is rows 512·t … 512·t + 511 of the array. -/
theorem iblk_act (c : Dev nD) (t : Fin cfg2.N) (y : Fin 512) (k : Fin 1024) (r : Fin 8192) (hr : r.val = t.val * 512 + y.val) :
    (iblk2 V c 0 t : Vec Ideal S512x1024 .bf16) (ix2 y k) = (V c main_v5 : S8192x1024.Idx → EReal) (ix2 r k) := by
  obtain ⟨e0, e1, -, -, -, -, -⟩ := idx_facts t
  unfold iblk2
  rw [View.read_apply]
  show (V c main_v5 : S8192x1024.Idx → EReal) _ = _
  refine congrArg (V c main_v5 : S8192x1024.Idx → EReal) (funext fun a => Fin.ext ?_)
  match a with
  | ⟨0, _⟩ => show win2_0.index t (0 : Fin 2) * 512 + 1 * y.val = r.val; rw [e0, hr]; omega
  | ⟨1, _⟩ => show win2_0.index t (1 : Fin 2) * 1024 + 1 * k.val = k.val; rw [e1]; omega

/-- The weights' block is the whole matrix at every point. -/
theorem iblk_w (c : Dev nD) (t : Fin cfg2.N) (e k : Fin 1024) :
    (iblk2 V c 1 t : Vec Ideal S1024x1024 .bf16) (ix2 e k) = (V c main_v1 : S1024x1024.Idx → EReal) (ix2 e k) := by
  obtain ⟨-, -, e2, e3, -, -, -⟩ := idx_facts t
  unfold iblk2
  rw [View.read_apply]
  show (V c main_v1 : S1024x1024.Idx → EReal) _ = _
  refine congrArg (V c main_v1 : S1024x1024.Idx → EReal) (funext fun a => Fin.ext ?_)
  match a with
  | ⟨0, _⟩ => show win2_1.index t (0 : Fin 2) * 1024 + 1 * e.val = e.val; rw [e2]; omega
  | ⟨1, _⟩ => show win2_1.index t (1 : Fin 2) * 1024 + 1 * k.val = k.val; rw [e3]; omega

/-- The bias's block is the whole vector at every point. -/
theorem iblk_b (c : Dev nD) (t : Fin cfg2.N) (e : Fin 1024) :
    (iblk2 V c 2 t : Vec Ideal S1024 .f32) (ix1 e) = (V c main_arg4 : S1024.Idx → EReal) (ix1 e) := by
  obtain ⟨-, -, -, -, e4, -, -⟩ := idx_facts t
  unfold iblk2
  rw [View.read_apply]
  show (V c main_arg4 : S1024.Idx → EReal) _ = _
  refine congrArg (V c main_arg4 : S1024.Idx → EReal) (funext fun a => Fin.ext ?_)
  match a with
  | ⟨0, _⟩ => show win2_2.index t (0 : Fin 1) * 1024 + 1 * e.val = e.val; rw [e4]; omega

/-- One entry of a point's result: if the point's blocks are rows 512·tt … of A, the whole Wo and the whole bo, then the
    payload at block index j is the flattened output projection at the array index i that j sits at. -/
theorem point_eq (A : S8192x1024.Idx → EReal) (Wo : S1024x1024.Idx → EReal) (bo : S1024.Idx → EReal)
    (x0 : Vec Ideal S512x1024 .bf16) (x1 : Vec Ideal S1024x1024 .bf16) (x2 : Vec Ideal S1024 .f32) (tt : ℕ)
    (h0 : ∀ (y : Fin 512) (k : Fin 1024) (r : Fin 8192), r.val = tt * 512 + y.val → x0 (ix2 y k) = A (ix2 r k))
    (h1 : ∀ e k : Fin 1024, x1 (ix2 e k) = Wo (ix2 e k)) (h2 : ∀ e : Fin 1024, x2 (ix1 e) = bo (ix1 e))
    (j : S512x1024.Idx) (i : S8192x1024.Idx) (hi0 : (i 0).val = tt * 512 + (j 0).val) (hi1 : (i 1).val = (j 1).val) :
    k2_pay1 x0 x1 x2 j = outFlat A Wo bo i := by
  obtain ⟨y, e, rfl⟩ : ∃ (y : Fin 512) (e : Fin 1024), j = ix2 y e := ⟨j 0, j 1, eq_ix2 j⟩
  obtain ⟨r, e', rfl⟩ : ∃ (r : Fin 8192) (e' : Fin 1024), i = ix2 r e' := ⟨i 0, i 1, eq_ix2 i⟩
  obtain rfl : e' = e := Fin.ext hi1
  rw [pay_apply]
  show _ = (∑ c : Fin 1024, A (ix2 r c) * Wo (ix2 e' c)) + bo (ix1 e')
  refine congrArg₂ (· + ·) (Finset.sum_congr rfl fun k _ => ?_) (h2 e')
  rw [h0 y k r hi0, h1]

/-- What point t writes back is block t of the flattened output projection of the arrays the region is entered with. -/
theorem flushed_eq (c : Dev nD) (t : Fin cfg2.N) :
    (dat2 V c).flushed 3 t = ((cfg2.win 3).blk t).view.read (Elt Ideal)
      (outFlat (V c main_v5 : S8192x1024.Idx → EReal) (V c main_v1 : S1024x1024.Idx → EReal) (V c main_arg4 : S1024.Idx → EReal)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  obtain ⟨-, -, -, -, -, e5, e6⟩ := idx_facts t
  funext j
  show k2_pay1 (iblk2 V c 0 t) (iblk2 V c 1 t) (iblk2 V c 2 t) j
    = outFlat (V c main_v5 : S8192x1024.Idx → EReal) (V c main_v1 : S1024x1024.Idx → EReal) (V c main_arg4 : S1024.Idx → EReal)
        (((cfg2.win 3).blk t).view.emb j)
  refine point_eq _ _ _ _ _ _ t.val (fun y k r hr => iblk_act V c t y k r hr) (iblk_w V c t) (iblk_b V c t) j _ ?_ ?_
  · show win2_3.index t (0 : Fin 2) * 512 + 1 * (j 0).val = t.val * 512 + (j 0).val
    rw [e5]; omega
  · show win2_3.index t (1 : Fin 2) * 1024 + 1 * (j 1).val = (j 1).val
    rw [e6]; omega

/-- An index of the output array is in point t's block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v6).slice (win2_3.rect t)).set ↔ _
  rw [View.set_slice_whole, Rect.mem_set_unit]
  exact Iff.rfl

/-- Every index of the output array is in the block of the point its row falls in: row r is in block r / 512. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  let t : Fin cfg2.N := ⟨(i 0).val / 512, by rw [hN]; omega⟩
  obtain ⟨-, -, -, -, -, e5, e6⟩ := idx_facts t
  have htv : t.val = (i 0).val / 512 := rfl
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; rw [e5, htv]; omega
  | ⟨1, _⟩ => show win2_3.index t (1 : Fin 2) * 1024 ≤ (i 1).val ∧ (i 1).val < win2_3.index t (1 : Fin 2) * 1024 + 1024; rw [e6]; omega

/-- The region's output array after its 16 points: the flattened output projection of the arrays it was entered with. -/
theorem final (c : Dev nD) : (dat2 V c).arrAt 3 cfg2.N
    = outFlat (V c main_v5 : S8192x1024.Idx → EReal) (V c main_v1 : S1024x1024.Idx → EReal) (V c main_arg4 : S1024.Idx → EReal) :=
  (dat2 V c).arrAt_eq_of_cover 3 _ (fun t _ => flushed_eq V c t) cover

end

end Cert.KernelIdeal.Region2

end
-- ==== Proof.Chain.lean ====
/-
  The host side of the kernel program: the buffer contents at the boundaries between its host operations and its three
  regions, composed. The three regions' final arrays are taken as hypotheses; the result array is then the flattened
  computation of the five argument arrays, read through the final reshape.
-/
import proofs.«110166_j78443282694529_2_alg».proof.Proof.Gen.KernelIdeal.Frame
import proofs.«110166_j78443282694529_2_alg».proof.Proof.FlatSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.Mha

variable (m : (ℓ : Loc nD τ sig) → Buf (Elt Ideal) ℓ) (ρ : Dev nD → PrngReg)

/-! ## The buffers when the first region is entered: the four host operations before it

Three format changes, which are the identity on extended reals, and the merge of the activations' two leading axes. -/

/-- The activations' buffer holds them flattened: row r is position r % 2048 of sequence r / 2048. -/
theorem V1_v3 (c : Dev nD) :
    (V1 (F := Ideal) m ρ c main_v3 : S8192x1024.Idx → EReal) = flatten (m ((c.tc : Thread nD τ).loc main_arg0)) := by
  have e : (V1 (F := Ideal) m ρ c main_v3 : S8192x1024.Idx → EReal)
      = shapeCast S8192x1024 (m ((c.tc : Thread nD τ).loc main_arg0) : S4x2048x1024.Idx → EReal) shapeCasts_S4x2048x1024_S8192x1024 := by
    show StableHlo.after hostOps0 _ (Proc.devRef .tc main_v3) = _
    after_results
    rfl
  rw [e]
  funext i
  obtain ⟨r, d, rfl⟩ : ∃ (r : Fin 8192) (d : Fin 1024), i = ix2 r d := ⟨i 0, i 1, eq_ix2 i⟩
  have hr := r.isLt
  refine (shapeCast_apply _ shapeCasts_S4x2048x1024_S8192x1024 (ix2 r d)
    (ix3 (⟨r.val / 2048, by omega⟩ : Fin 4) (⟨r.val % 2048, Nat.mod_lt _ (by decide)⟩ : Fin 2048) d) ?_).trans rfl
  rw [Shape.rowMajor_val_three, Shape.rowMajor_val_two]
  show (r.val / 2048 * 2048 + r.val % 2048) * 1024 + d.val = r.val * 1024 + d.val
  omega

/-- The fused projection matrix, its format changed. -/
theorem V1_v0 (c : Dev nD) :
    (V1 (F := Ideal) m ρ c main_v0 : S3072x1024.Idx → EReal) = m ((c.tc : Thread nD τ).loc main_arg1) := by
  show StableHlo.after hostOps0 _ (Proc.devRef .tc main_v0) = _
  after_results
  rfl

/-- The output projection matrix, its format changed. -/
theorem V1_v1 (c : Dev nD) :
    (V1 (F := Ideal) m ρ c main_v1 : S1024x1024.Idx → EReal) = m ((c.tc : Thread nD τ).loc main_arg3) := by
  show StableHlo.after hostOps0 _ (Proc.devRef .tc main_v1) = _
  after_results
  rfl

/-- The two biases are arguments no host operation writes. -/
theorem V1_arg2 (c : Dev nD) :
    (V1 (F := Ideal) m ρ c main_arg2 : S3072.Idx → EReal) = m ((c.tc : Thread nD τ).loc main_arg2) := by
  show StableHlo.after hostOps0 _ (Proc.devRef .tc main_arg2) = _
  after_results

theorem V1_arg4 (c : Dev nD) :
    (V1 (F := Ideal) m ρ c main_arg4 : S1024.Idx → EReal) = m ((c.tc : Thread nD τ).loc main_arg4) := by
  show StableHlo.after hostOps0 _ (Proc.devRef .tc main_arg4) = _
  after_results

/-! ## Through the three regions

A region leaves each of its output arrays at what its grid points wrote back, and every buffer that is not one of its
arrays as it found it. -/

section
variable (c : Dev nD)

/-- After the first region the queries' buffer holds part 0 of the fused projection of the flattened activations. -/
theorem V2_q
    (h3 : ∀ (V : (c : Dev nD) → (b : Ref sig .tc) → Buf (Elt Ideal) ((c : Thread nD τ).loc b)) (c : Dev nD), (dat0 V c).arrAt 3 cfg0.N
      = projFlat 0 (V c main_v3 : S8192x1024.Idx → EReal) (V c main_v0 : S3072x1024.Idx → EReal) (V c main_arg2 : S3072.Idx → EReal)) :
    (V2 (F := Ideal) m ρ c main_v4_0 : S8192x1024.Idx → EReal)
      = projFlat 0 (flatten (m ((c.tc : Thread nD τ).loc main_arg0))) (m ((c.tc : Thread nD τ).loc main_arg1)) (m ((c.tc : Thread nD τ).loc main_arg2)) := by
  have e : (V2 (F := Ideal) m ρ c main_v4_0 : S8192x1024.Idx → EReal) = (dat0 (V1 m ρ) c).arrAt 3 cfg0.N := W2_arr m ρ c 3
  rw [e, h3 (V1 m ρ) c, V1_v3, V1_v0, V1_arg2]

/-- The keys' buffer holds part 1. -/
theorem V2_k
    (h4 : ∀ (V : (c : Dev nD) → (b : Ref sig .tc) → Buf (Elt Ideal) ((c : Thread nD τ).loc b)) (c : Dev nD), (dat0 V c).arrAt 4 cfg0.N
      = projFlat 1 (V c main_v3 : S8192x1024.Idx → EReal) (V c main_v0 : S3072x1024.Idx → EReal) (V c main_arg2 : S3072.Idx → EReal)) :
    (V2 (F := Ideal) m ρ c main_v4_1 : S8192x1024.Idx → EReal)
      = projFlat 1 (flatten (m ((c.tc : Thread nD τ).loc main_arg0))) (m ((c.tc : Thread nD τ).loc main_arg1)) (m ((c.tc : Thread nD τ).loc main_arg2)) := by
  have e : (V2 (F := Ideal) m ρ c main_v4_1 : S8192x1024.Idx → EReal) = (dat0 (V1 m ρ) c).arrAt 4 cfg0.N := W2_arr m ρ c 4
  rw [e, h4 (V1 m ρ) c, V1_v3, V1_v0, V1_arg2]

/-- The values' buffer holds part 2. -/
theorem V2_v
    (h5 : ∀ (V : (c : Dev nD) → (b : Ref sig .tc) → Buf (Elt Ideal) ((c : Thread nD τ).loc b)) (c : Dev nD), (dat0 V c).arrAt 5 cfg0.N
      = projFlat 2 (V c main_v3 : S8192x1024.Idx → EReal) (V c main_v0 : S3072x1024.Idx → EReal) (V c main_arg2 : S3072.Idx → EReal)) :
    (V2 (F := Ideal) m ρ c main_v4_2 : S8192x1024.Idx → EReal)
      = projFlat 2 (flatten (m ((c.tc : Thread nD τ).loc main_arg0))) (m ((c.tc : Thread nD τ).loc main_arg1)) (m ((c.tc : Thread nD τ).loc main_arg2)) := by
  have e : (V2 (F := Ideal) m ρ c main_v4_2 : S8192x1024.Idx → EReal) = (dat0 (V1 m ρ) c).arrAt 5 cfg0.N := W2_arr m ρ c 5
  rw [e, h5 (V1 m ρ) c, V1_v3, V1_v0, V1_arg2]

/-- The output projection matrix and bias reach the third region as the host operations left them: neither is an array
    of the first two regions. -/
theorem V3_v1 : (V3 (F := Ideal) m ρ c main_v1 : S1024x1024.Idx → EReal) = m ((c.tc : Thread nD τ).loc main_arg3) :=
  (W3_of_ne m ρ c main_v1 (by decide)).trans ((W2_of_ne m ρ c main_v1 (by decide)).trans (V1_v1 m ρ c))

theorem V3_arg4 : (V3 (F := Ideal) m ρ c main_arg4 : S1024.Idx → EReal) = m ((c.tc : Thread nD τ).loc main_arg4) :=
  (W3_of_ne m ρ c main_arg4 (by decide)).trans ((W2_of_ne m ρ c main_arg4 (by decide)).trans (V1_arg4 m ρ c))

end

section
variable (c : Dev nD)

/-- After the second region its output buffer holds the attended values of the three parts. -/
theorem V3_attn
    (h3 : ∀ (V : (c : Dev nD) → (b : Ref sig .tc) → Buf (Elt Ideal) ((c : Thread nD τ).loc b)) (c : Dev nD), (dat0 V c).arrAt 3 cfg0.N
      = projFlat 0 (V c main_v3 : S8192x1024.Idx → EReal) (V c main_v0 : S3072x1024.Idx → EReal) (V c main_arg2 : S3072.Idx → EReal))
    (h4 : ∀ (V : (c : Dev nD) → (b : Ref sig .tc) → Buf (Elt Ideal) ((c : Thread nD τ).loc b)) (c : Dev nD), (dat0 V c).arrAt 4 cfg0.N
      = projFlat 1 (V c main_v3 : S8192x1024.Idx → EReal) (V c main_v0 : S3072x1024.Idx → EReal) (V c main_arg2 : S3072.Idx → EReal))
    (h5 : ∀ (V : (c : Dev nD) → (b : Ref sig .tc) → Buf (Elt Ideal) ((c : Thread nD τ).loc b)) (c : Dev nD), (dat0 V c).arrAt 5 cfg0.N
      = projFlat 2 (V c main_v3 : S8192x1024.Idx → EReal) (V c main_v0 : S3072x1024.Idx → EReal) (V c main_arg2 : S3072.Idx → EReal))
    (ha : ∀ (V : (c : Dev nD) → (b : Ref sig .tc) → Buf (Elt Ideal) ((c : Thread nD τ).loc b)) (c : Dev nD), (dat1 V c).arrAt 3 cfg1.N
      = attnFlat (V c main_v4_0 : S8192x1024.Idx → EReal) (V c main_v4_1 : S8192x1024.Idx → EReal) (V c main_v4_2 : S8192x1024.Idx → EReal)) :
    (V3 (F := Ideal) m ρ c main_v5 : S8192x1024.Idx → EReal)
      = attnFlat (projFlat 0 (flatten (m ((c.tc : Thread nD τ).loc main_arg0))) (m ((c.tc : Thread nD τ).loc main_arg1)) (m ((c.tc : Thread nD τ).loc main_arg2)))
          (projFlat 1 (flatten (m ((c.tc : Thread nD τ).loc main_arg0))) (m ((c.tc : Thread nD τ).loc main_arg1)) (m ((c.tc : Thread nD τ).loc main_arg2)))
          (projFlat 2 (flatten (m ((c.tc : Thread nD τ).loc main_arg0))) (m ((c.tc : Thread nD τ).loc main_arg1)) (m ((c.tc : Thread nD τ).loc main_arg2))) := by
  have e : (V3 (F := Ideal) m ρ c main_v5 : S8192x1024.Idx → EReal) = (dat1 (V2 m ρ) c).arrAt 3 cfg1.N := W3_arr m ρ c 3
  rw [e, ha (V2 m ρ) c, V2_q m ρ c h3, V2_k m ρ c h4, V2_v m ρ c h5]

/-- After the third region its output buffer holds the whole flattened computation of the five argument arrays. -/
theorem V4_out
    (h3 : ∀ (V : (c : Dev nD) → (b : Ref sig .tc) → Buf (Elt Ideal) ((c : Thread nD τ).loc b)) (c : Dev nD), (dat0 V c).arrAt 3 cfg0.N
      = projFlat 0 (V c main_v3 : S8192x1024.Idx → EReal) (V c main_v0 : S3072x1024.Idx → EReal) (V c main_arg2 : S3072.Idx → EReal))
    (h4 : ∀ (V : (c : Dev nD) → (b : Ref sig .tc) → Buf (Elt Ideal) ((c : Thread nD τ).loc b)) (c : Dev nD), (dat0 V c).arrAt 4 cfg0.N
      = projFlat 1 (V c main_v3 : S8192x1024.Idx → EReal) (V c main_v0 : S3072x1024.Idx → EReal) (V c main_arg2 : S3072.Idx → EReal))
    (h5 : ∀ (V : (c : Dev nD) → (b : Ref sig .tc) → Buf (Elt Ideal) ((c : Thread nD τ).loc b)) (c : Dev nD), (dat0 V c).arrAt 5 cfg0.N
      = projFlat 2 (V c main_v3 : S8192x1024.Idx → EReal) (V c main_v0 : S3072x1024.Idx → EReal) (V c main_arg2 : S3072.Idx → EReal))
    (ha : ∀ (V : (c : Dev nD) → (b : Ref sig .tc) → Buf (Elt Ideal) ((c : Thread nD τ).loc b)) (c : Dev nD), (dat1 V c).arrAt 3 cfg1.N
      = attnFlat (V c main_v4_0 : S8192x1024.Idx → EReal) (V c main_v4_1 : S8192x1024.Idx → EReal) (V c main_v4_2 : S8192x1024.Idx → EReal))
    (ho : ∀ (V : (c : Dev nD) → (b : Ref sig .tc) → Buf (Elt Ideal) ((c : Thread nD τ).loc b)) (c : Dev nD), (dat2 V c).arrAt 3 cfg2.N
      = outFlat (V c main_v5 : S8192x1024.Idx → EReal) (V c main_v1 : S1024x1024.Idx → EReal) (V c main_arg4 : S1024.Idx → EReal)) :
    (V4 (F := Ideal) m ρ c main_v6 : S8192x1024.Idx → EReal)
      = flatResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : (V4 (F := Ideal) m ρ c main_v6 : S8192x1024.Idx → EReal) = (dat2 (V3 m ρ) c).arrAt 3 cfg2.N := W4_arr m ρ c 3
  rw [e, ho (V3 m ρ) c, V3_attn m ρ c h3 h4 h5 ha, V3_v1, V3_arg4]
  rfl

end

/-! ## The result -/

/-- The result array at (b, s, e) is the flattened computation at row b · 2048 + s, column e: the last host operation
    splits the 8192 rows back into 4 sequences of 2048 positions. -/
theorem kernel_value (m : (ℓ : Loc nD τ sig) → Buf (Elt Ideal) ℓ) (ρ : Dev nD → PrngReg) (c : Dev nD)
    (h3 : ∀ (V : (c : Dev nD) → (b : Ref sig .tc) → Buf (Elt Ideal) ((c : Thread nD τ).loc b)) (c : Dev nD), (dat0 V c).arrAt 3 cfg0.N
      = projFlat 0 (V c main_v3 : S8192x1024.Idx → EReal) (V c main_v0 : S3072x1024.Idx → EReal) (V c main_arg2 : S3072.Idx → EReal))
    (h4 : ∀ (V : (c : Dev nD) → (b : Ref sig .tc) → Buf (Elt Ideal) ((c : Thread nD τ).loc b)) (c : Dev nD), (dat0 V c).arrAt 4 cfg0.N
      = projFlat 1 (V c main_v3 : S8192x1024.Idx → EReal) (V c main_v0 : S3072x1024.Idx → EReal) (V c main_arg2 : S3072.Idx → EReal))
    (h5 : ∀ (V : (c : Dev nD) → (b : Ref sig .tc) → Buf (Elt Ideal) ((c : Thread nD τ).loc b)) (c : Dev nD), (dat0 V c).arrAt 5 cfg0.N
      = projFlat 2 (V c main_v3 : S8192x1024.Idx → EReal) (V c main_v0 : S3072x1024.Idx → EReal) (V c main_arg2 : S3072.Idx → EReal))
    (ha : ∀ (V : (c : Dev nD) → (b : Ref sig .tc) → Buf (Elt Ideal) ((c : Thread nD τ).loc b)) (c : Dev nD), (dat1 V c).arrAt 3 cfg1.N
      = attnFlat (V c main_v4_0 : S8192x1024.Idx → EReal) (V c main_v4_1 : S8192x1024.Idx → EReal) (V c main_v4_2 : S8192x1024.Idx → EReal))
    (ho : ∀ (V : (c : Dev nD) → (b : Ref sig .tc) → Buf (Elt Ideal) ((c : Thread nD τ).loc b)) (c : Dev nD), (dat2 V c).arrAt 3 cfg2.N
      = outFlat (V c main_v5 : S8192x1024.Idx → EReal) (V c main_v1 : S1024x1024.Idx → EReal) (V c main_arg4 : S1024.Idx → EReal))
    (b : Fin 4) (s : Fin 2048) (e : Fin 1024) (r : Fin 8192) (hr : r.val = b.val * 2048 + s.val) :
    (W5 (F := Ideal) m ρ c (Proc.devRef .tc main_v7) : S4x2048x1024.Idx → EReal) (ix3 b s e)
      = flatResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r e) := by
  have hW : (W5 (F := Ideal) m ρ c (Proc.devRef .tc main_v7) : S4x2048x1024.Idx → EReal)
      = shapeCast S4x2048x1024 (V4 (F := Ideal) m ρ c main_v6 : S8192x1024.Idx → EReal) shapeCasts_S8192x1024_S4x2048x1024 := by
    show StableHlo.after hostOps3 _ (Proc.devRef .tc main_v7) = _
    after_results
    rfl
  rw [hW]
  refine (shapeCast_apply _ shapeCasts_S8192x1024_S4x2048x1024 (ix3 b s e) (ix2 r e) ?_).trans ?_
  · rw [Shape.rowMajor_val_two, Shape.rowMajor_val_three]
    show r.val * 1024 + e.val = (b.val * 2048 + s.val) * 1024 + e.val
    rw [hr]
  · exact congrFun (V4_out m ρ c h3 h4 h5 ha ho) (ix2 r e)

end Cert.KernelIdeal.Chain

end
-- ==== Proof.lean ====
/-
  The certificate of a multi-head self-attention layer: a three-kernel implementation on flattened activations against
  the textbook formulation.

  Both programs compute, for activations x[b, s, ·], the fused projection qkv = x · Wᵀ + bq split into 16 heads of
  width 64, the scaled dot-product attention of each head over the 2048 positions of a sequence, and the output
  projection of the merged heads (Proof/Spec.lean states this as one function G of the five argument arrays).

  The reference computes it on [4, 2048, …] arrays with transposes between the layouts, dividing each finished score by
  √64 (Proof/RefValue.lean: its result is G). The kernel program keeps every intermediate as one [8192, 1024] array:
  a first region writes the three projections (Proof/Region0.lean), a second the attended values, two heads per grid
  point, scaling the queries by ⅛ before the product with the keys (Proof/Region1.lean), a third the output projection
  (Proof/Region2.lean); Proof/Chain.lean composes them through the host operations around the regions and
  Proof/FlatSpec.lean states what they compute. The two formulations differ only in where the factor ⅛ = 1/√64 sits:
  Σ_d (q_d · ⅛) · k_d against (Σ_d q_d · k_d) / 8. These agree when the projections are real numbers — a factor moves
  across a finite sum of reals — and they are, because the inputs are finite (Proof/Finite.lean reads that off the
  precondition; Proof/FlatBridge.lean proves the agreement). Everything after the scores — the row maximum, the
  exponentials, their sum, the quotient, the product with the values, the output projection — is the same function of
  the scores on both sides.

  The three frames: the two kernel programs' are generated; the reference's is its generated run with the result
  dropped. The idealized kernel is the kernel's own text read at the exact values (no rewrite was applied).
-/
import proofs.«110166_j78443282694529_2_alg».proof.Defs
import proofs.«110166_j78443282694529_2_alg».proof.Proof.Gen.Kernel
import proofs.«110166_j78443282694529_2_alg».proof.Proof.Gen.Kernel.Skeleton
import proofs.«110166_j78443282694529_2_alg».proof.Proof.Gen.Kernel.Launch
import proofs.«110166_j78443282694529_2_alg».proof.Proof.Gen.Kernel.Points
import proofs.«110166_j78443282694529_2_alg».proof.Proof.Gen.Kernel.Frame
import proofs.«110166_j78443282694529_2_alg».proof.Proof.Gen.KernelIdeal
import proofs.«110166_j78443282694529_2_alg».proof.Proof.Gen.KernelIdeal.Skeleton
import proofs.«110166_j78443282694529_2_alg».proof.Proof.Gen.KernelIdeal.Launch
import proofs.«110166_j78443282694529_2_alg».proof.Proof.Gen.KernelIdeal.Points
import proofs.«110166_j78443282694529_2_alg».proof.Proof.Gen.KernelIdeal.Frame
import proofs.«110166_j78443282694529_2_alg».proof.Proof.Gen.ReferenceIdeal
import proofs.«110166_j78443282694529_2_alg».proof.Proof.Gen.Pre_finite_inputs
import proofs.«110166_j78443282694529_2_alg».proof.Proof.Gen.ReferenceIdeal.Run
import proofs.«110166_j78443282694529_2_alg».proof.Proof.Gen.ReferenceIdeal.Read
import proofs.«110166_j78443282694529_2_alg».proof.Proof.Spec
import proofs.«110166_j78443282694529_2_alg».proof.Proof.FlatSpec
import proofs.«110166_j78443282694529_2_alg».proof.Proof.FlatBridge
import proofs.«110166_j78443282694529_2_alg».proof.Proof.RefValue
import proofs.«110166_j78443282694529_2_alg».proof.Proof.Finite
import proofs.«110166_j78443282694529_2_alg».proof.Proof.KernelRun
import proofs.«110166_j78443282694529_2_alg».proof.Proof.Region0
import proofs.«110166_j78443282694529_2_alg».proof.Proof.Region1
import proofs.«110166_j78443282694529_2_alg».proof.Proof.Region2
import proofs.«110166_j78443282694529_2_alg».proof.Proof.Chain
import Idealize.ShloMosaic.Adequacy
import Idealize.ShloMosaic.Init

noncomputable section

namespace Cert.Proof

open Idealize.ShloMosaic Idealize.SL.Sem Idealize.ShloMosaic.ValueIdx

section
variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's result array, under the precondition, is G of its argument arrays: the regions' arrays
    composed (Chain), the flattened layout read back at (b, s) (FlatBridge), the inputs finite (Finite). -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.W5 (F := Ideal) m ρ c (Proc.devRef .tc Cert.KernelIdeal.main_v7) : Cert.Mha.SX.Idx → EReal)
      = Cert.Mha.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext i
  obtain ⟨b, s, e, rfl⟩ : ∃ (b : Fin 4) (s : Fin 2048) (e : Fin 1024), i = ix3 b s e := ⟨i 0, i 1, i 2, eq_ix3 i⟩
  obtain ⟨hx, hW, hb⟩ := Cert.KernelIdeal.Finite.of_pre m hpre c
  have hr : b.val * 2048 + s.val < 8192 := by have := b.isLt; have := s.isLt; omega
  rw [Cert.KernelIdeal.Chain.kernel_value m ρ c (fun V c => Cert.KernelIdeal.Region0.final3 V c)
    (fun V c => Cert.KernelIdeal.Region0.final4 V c) (fun V c => Cert.KernelIdeal.Region0.final5 V c)
    (fun V c => Cert.KernelIdeal.Region1.final V c) (fun V c => Cert.KernelIdeal.Region2.final V c) b s e ⟨_, hr⟩ rfl]
  exact Cert.Mha.flatResult_eq _ _ _ _ _ hx hW hb b s e ⟨_, hr⟩ rfl

/-- At the exact values both programs end with G of the arguments: the kernel by `kernel_result` over its run, the
    reference by its generated run, whose result term is G (RefValue). -/
theorem algebraic : Cert.algebraic_KernelIdeal_ReferenceIdeal := by
  intro m ρ m' ρ' hpre hagree
  refine ⟨fun c => (Cert.Mha.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))), ?_, ?_⟩
  · exact (θ_run Cert.KernelIdeal.defs _ _).mono (fun r h c => ⟨(h c).1.trans (kernel_result m ρ hpre c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, Cert.ReferenceIdeal.RefValue.result_eq, (hagree c).1, (hagree c).2.1,
      (hagree c).2.2.1, (hagree c).2.2.2.1, (hagree c).2.2.2.2]

end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
